-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x512x512 : Shape := ⟨4, ![2, 8, 512, 512]⟩
abbrev S2x200x512x512 : Shape := ⟨4, ![2, 200, 512, 512]⟩
abbrev S_ : Shape := ⟨0, ![]⟩

class Facts : Prop where
  bcast_S_S2x8x512x512 : S_.BroadcastsInDim S2x8x512x512 (![] : Fin 0 → Fin S2x8x512x512.rank)
  reducesTo_S2x8x512x512_S_d0_1_2_3 : S2x8x512x512.ReducesTo [0, 1, 2, 3] S_
  h_S_ : 0 < S_.numel
  bcast_S_S2x200x512x512 : S_.BroadcastsInDim S2x200x512x512 (![] : Fin 0 → Fin S2x200x512x512.rank)
  reducesTo_S2x200x512x512_S_d0_1_2_3 : S2x200x512x512.ReducesTo [0, 1, 2, 3] S_

variable [Facts]

def fn {F : FTy → Type} [FloatOps F] (main_arg0 : FVec F S2x8x512x512 .f32) (main_arg1 : FVec F S2x200x512x512 .f32) (main_arg2 : FVec F S2x8x512x512 .f32) : IVec S_ 1 :=
  let main_v0 : FVec F S2x8x512x512 .f32 := Host.absf main_arg0
  let main_cst : FVec F S_ .f32 := constant S_ .f32 0x7F800000#32
  let main_v1 : FVec F S2x8x512x512 .f32 := broadcastInDim S2x8x512x512 ![] bcast_S_S2x8x512x512 main_cst
  let main_v2 : IVec S2x8x512x512 1 := cmpf .olt main_v0 main_v1
  let main_c : IVec S_ 1 := constantI S_ 1 1#1
  let main_v3 : IVec S_ 1 := (fun x v => Host.reduce IntOp.andi x v reducesTo_S2x8x512x512_S_d0_1_2_3 h_S_) main_v2 main_c
  let main_v4 : FVec F S2x200x512x512 .f32 := Host.absf main_arg1
  let main_cst_0 : FVec F S_ .f32 := constant S_ .f32 0x7F800000#32
  let main_v5 : FVec F S2x200x512x512 .f32 := broadcastInDim S2x200x512x512 ![] bcast_S_S2x200x512x512 main_cst_0
  let main_v6 : IVec S2x200x512x512 1 := cmpf .olt main_v4 main_v5
  let main_c_1 : IVec S_ 1 := constantI S_ 1 1#1
  let main_v7 : IVec S_ 1 := (fun x v => Host.reduce IntOp.andi x v reducesTo_S2x200x512x512_S_d0_1_2_3 h_S_) main_v6 main_c_1
  let main_v8 : IVec S_ 1 := andi main_v3 main_v7
  let main_v9 : FVec F S2x8x512x512 .f32 := Host.absf main_arg2
  let main_cst_2 : FVec F S_ .f32 := constant S_ .f32 0x7F800000#32
  let main_v10 : FVec F S2x8x512x512 .f32 := broadcastInDim S2x8x512x512 ![] bcast_S_S2x8x512x512 main_cst_2
  let main_v11 : IVec S2x8x512x512 1 := cmpf .olt main_v9 main_v10
  let main_c_3 : IVec S_ 1 := constantI S_ 1 1#1
  let main_v12 : IVec S_ 1 := (fun x v => Host.reduce IntOp.andi x v reducesTo_S2x8x512x512_S_d0_1_2_3 h_S_) main_v11 main_c_3
  let main_v13 : IVec S_ 1 := andi main_v8 main_v12
  main_v13
-- ==== Kernel.lean ====
abbrev S2x8x512x512 : Shape := ⟨4, ![2, 8, 512, 512]⟩
abbrev S2x200x512x512 : Shape := ⟨4, ![2, 200, 512, 512]⟩
abbrev S_ : Shape := ⟨0, ![]⟩
abbrev S2x8x516x516 : Shape := ⟨4, ![2, 8, 516, 516]⟩
abbrev S2x8x25x512x512 : Shape := ⟨5, ![2, 8, 25, 512, 512]⟩
abbrev S1x1x25x256x512 : Shape := ⟨5, ![1, 1, 25, 256, 512]⟩
abbrev S1x1x516x516 : Shape := ⟨4, ![1, 1, 516, 516]⟩
abbrev S1x1x256x512 : Shape := ⟨4, ![1, 1, 256, 512]⟩
abbrev S256x512 : Shape := ⟨2, ![256, 512]⟩
abbrev S1x1x256x516 : Shape := ⟨4, ![1, 1, 256, 516]⟩
abbrev S256x516 : Shape := ⟨2, ![256, 516]⟩
abbrev S1x1x1x256x512 : Shape := ⟨5, ![1, 1, 1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x8x512x512, .f32⟩
  | .hbm, ⟨1, _⟩ => ⟨S2x200x512x512, .f32⟩
  | .hbm, ⟨2, _⟩ => ⟨S2x8x512x512, .f32⟩
  | .hbm, ⟨3, _⟩ => ⟨S_, .i32⟩
  | .hbm, ⟨4, _⟩ => ⟨S_, .f32⟩
  | .hbm, ⟨5, _⟩ => ⟨S2x8x516x516, .f32⟩
  | .hbm, ⟨6, _⟩ => ⟨S2x8x25x512x512, .f32⟩
  | .hbm, ⟨7, _⟩ => ⟨S2x8x512x512, .f32⟩
  | .local _ .vmem, ⟨0, _⟩ => ⟨S1x1x25x256x512, .f32⟩
  | .local _ .vmem, ⟨1, _⟩ => ⟨S1x1x25x256x512, .f32⟩
  | .local _ .vmem, ⟨2, _⟩ => ⟨S1x1x516x516, .f32⟩
  | .local _ .vmem, ⟨3, _⟩ => ⟨S1x1x516x516, .f32⟩
  | .local _ .vmem, ⟨4, _⟩ => ⟨S1x1x256x512, .f32⟩
  | .local _ .vmem, ⟨5, _⟩ => ⟨S1x1x256x512, .f32⟩
  | .local _ .vmem, ⟨6, _⟩ => ⟨S1x1x256x512, .f32⟩
  | .local _ .vmem, ⟨7, _⟩ => ⟨S1x1x256x512, .f32⟩
  | _, _ => ⟨S2x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def k0_off1 (i : grid0.Coords) (c0_i32 : BitVec 32) : Fin 4 → Nat :=
  let c0 : Index := 0#32
  let c0_0 : Index := 0#32
  let arg2 : BitVec 32 := BitVec.ofNat 32 (i 2).val
  let c256_i32 : BitVec 32 := 256#32
  let v0 : BitVec 32 := Scalar.muli arg2 c256_i32
  let v2 : BitVec 32 := Scalar.addi v0 c0_i32
  let v3 : Index := Scalar.indexCast v2
  let c0_1 : Index := 0#32
  ![0, 0, v3.toNat, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x25x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x516x516 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  pads_S2x8x512x512_S2x8x516x516_000_000_220_220 : S2x8x512x512.Pads (![0, 0, 2, 2] : Fin 4 → Nat) ![0, 0, 2, 2] ![0, 0, 0, 0] S2x8x516x516
  h_S_ : 0 < S_.numel
  shapeCasts_S2x200x512x512_S2x8x25x512x512 : S2x200x512x512.ShapeCasts S2x8x25x512x512
  h_S1x1x256x516 : 0 < S1x1x256x516.numel
  shapeCasts_S1x1x256x516_S256x516 : S1x1x256x516.ShapeCasts S256x516
  inb_S1x1x25x256x512_S1x1x1x256x512_0_0_0_0_0 : ∀ a, (![0, 0, 0, 0, 0] : Fin 5 → Nat) a + S1x1x1x256x512.size a ≤ S1x1x25x256x512.size a
  h_S1x1x1x256x512 : 0 < S1x1x1x256x512.numel
  shapeCasts_S1x1x1x256x512_S256x512 : S1x1x1x256x512.ShapeCasts S256x512
  slices_S256x516_o0_0_S256x512 : S256x516.Slices ![0, 0] S256x512
  inb_S1x1x25x256x512_S1x1x1x256x512_0_0_1_0_0 : ∀ a, (![0, 0, 1, 0, 0] : Fin 5 → Nat) a + S1x1x1x256x512.size a ≤ S1x1x25x256x512.size a
  slices_S256x516_o0_1_S256x512 : S256x516.Slices ![0, 1] S256x512
  inb_S1x1x25x256x512_S1x1x1x256x512_0_0_2_0_0 : ∀ a, (![0, 0, 2, 0, 0] : Fin 5 → Nat) a + S1x1x1x256x512.size a ≤ S1x1x25x256x512.size a
  slices_S256x516_o0_2_S256x512 : S256x516.Slices ![0, 2] S256x512
  inb_S1x1x25x256x512_S1x1x1x256x512_0_0_3_0_0 : ∀ a, (![0, 0, 3, 0, 0] : Fin 5 → Nat) a + S1x1x1x256x512.size a ≤ S1x1x25x256x512.size a
  slices_S256x516_o0_3_S256x512 : S256x516.Slices ![0, 3] S256x512
  inb_S1x1x25x256x512_S1x1x1x256x512_0_0_4_0_0 : ∀ a, (![0, 0, 4, 0, 0] : Fin 5 → Nat) a + S1x1x1x256x512.size a ≤ S1x1x25x256x512.size a
  slices_S256x516_o0_4_S256x512 : S256x516.Slices ![0, 4] S256x512
  inb_S1x1x25x256x512_S1x1x1x256x512_0_0_5_0_0 : ∀ a, (![0, 0, 5, 0, 0] : Fin 5 → Nat) a + S1x1x1x256x512.size a ≤ S1x1x25x256x512.size a
  inb_S1x1x25x256x512_S1x1x1x256x512_0_0_6_0_0 : ∀ a, (![0, 0, 6, 0, 0] : Fin 5 → Nat) a + S1x1x1x256x512.size a ≤ S1x1x25x256x512.size a
  inb_S1x1x25x256x512_S1x1x1x256x512_0_0_7_0_0 : ∀ a, (![0, 0, 7, 0, 0] : Fin 5 → Nat) a + S1x1x1x256x512.size a ≤ S1x1x25x256x512.size a
  inb_S1x1x25x256x512_S1x1x1x256x512_0_0_8_0_0 : ∀ a, (![0, 0, 8, 0, 0] : Fin 5 → Nat) a + S1x1x1x256x512.size a ≤ S1x1x25x256x512.size a
  inb_S1x1x25x256x512_S1x1x1x256x512_0_0_9_0_0 : ∀ a, (![0, 0, 9, 0, 0] : Fin 5 → Nat) a + S1x1x1x256x512.size a ≤ S1x1x25x256x512.size a
  inb_S1x1x25x256x512_S1x1x1x256x512_0_0_10_0_0 : ∀ a, (![0, 0, 10, 0, 0] : Fin 5 → Nat) a + S1x1x1x256x512.size a ≤ S1x1x25x256x512.size a
  inb_S1x1x25x256x512_S1x1x1x256x512_0_0_11_0_0 : ∀ a, (![0, 0, 11, 0, 0] : Fin 5 → Nat) a + S1x1x1x256x512.size a ≤ S1x1x25x256x512.size a
  inb_S1x1x25x256x512_S1x1x1x256x512_0_0_12_0_0 : ∀ a, (![0, 0, 12, 0, 0] : Fin 5 → Nat) a + S1x1x1x256x512.size a ≤ S1x1x25x256x512.size a
  inb_S1x1x25x256x512_S1x1x1x256x512_0_0_13_0_0 : ∀ a, (![0, 0, 13, 0, 0] : Fin 5 → Nat) a + S1x1x1x256x512.size a ≤ S1x1x25x256x512.size a
  inb_S1x1x25x256x512_S1x1x1x256x512_0_0_14_0_0 : ∀ a, (![0, 0, 14, 0, 0] : Fin 5 → Nat) a + S1x1x1x256x512.size a ≤ S1x1x25x256x512.size a
  inb_S1x1x25x256x512_S1x1x1x256x512_0_0_15_0_0 : ∀ a, (![0, 0, 15, 0, 0] : Fin 5 → Nat) a + S1x1x1x256x512.size a ≤ S1x1x25x256x512.size a
  inb_S1x1x25x256x512_S1x1x1x256x512_0_0_16_0_0 : ∀ a, (![0, 0, 16, 0, 0] : Fin 5 → Nat) a + S1x1x1x256x512.size a ≤ S1x1x25x256x512.size a
  inb_S1x1x25x256x512_S1x1x1x256x512_0_0_17_0_0 : ∀ a, (![0, 0, 17, 0, 0] : Fin 5 → Nat) a + S1x1x1x256x512.size a ≤ S1x1x25x256x512.size a
  inb_S1x1x25x256x512_S1x1x1x256x512_0_0_18_0_0 : ∀ a, (![0, 0, 18, 0, 0] : Fin 5 → Nat) a + S1x1x1x256x512.size a ≤ S1x1x25x256x512.size a
  inb_S1x1x25x256x512_S1x1x1x256x512_0_0_19_0_0 : ∀ a, (![0, 0, 19, 0, 0] : Fin 5 → Nat) a + S1x1x1x256x512.size a ≤ S1x1x25x256x512.size a
  inb_S1x1x25x256x512_S1x1x1x256x512_0_0_20_0_0 : ∀ a, (![0, 0, 20, 0, 0] : Fin 5 → Nat) a + S1x1x1x256x512.size a ≤ S1x1x25x256x512.size a
  inb_S1x1x25x256x512_S1x1x1x256x512_0_0_21_0_0 : ∀ a, (![0, 0, 21, 0, 0] : Fin 5 → Nat) a + S1x1x1x256x512.size a ≤ S1x1x25x256x512.size a
  inb_S1x1x25x256x512_S1x1x1x256x512_0_0_22_0_0 : ∀ a, (![0, 0, 22, 0, 0] : Fin 5 → Nat) a + S1x1x1x256x512.size a ≤ S1x1x25x256x512.size a
  inb_S1x1x25x256x512_S1x1x1x256x512_0_0_23_0_0 : ∀ a, (![0, 0, 23, 0, 0] : Fin 5 → Nat) a + S1x1x1x256x512.size a ≤ S1x1x25x256x512.size a
  inb_S1x1x25x256x512_S1x1x1x256x512_0_0_24_0_0 : ∀ a, (![0, 0, 24, 0, 0] : Fin 5 → Nat) a + S1x1x1x256x512.size a ≤ S1x1x25x256x512.size a
  inb_S1x1x256x512_S1x1x256x512_0_0_0_0 : ∀ a, (![0, 0, 0, 0] : Fin 4 → Nat) a + S1x1x256x512.size a ≤ S1x1x256x512.size a
  h_S1x1x256x512 : 0 < S1x1x256x512.numel
  shapeCasts_S1x1x256x512_S256x512 : S1x1x256x512.ShapeCasts S256x512
  shapeCasts_S256x512_S1x1x256x512 : S256x512.ShapeCasts S1x1x256x512
  hrank0 : 0 < grid0.rank
  k0_off1_inb : ∀ i : grid0.Coords, ∀ (r : Fin 5), ∀ a, (k0_off1 i (BitVec.ofNat 32 r.val)) a + S1x1x256x516.size a ≤ S1x1x516x516.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x25x256x512.size a ≤ S2x8x25x512x512.size a
  hwx0_0 : ∀ i : grid0.Coords, EltTy.bits .f32 = 32 ∨ (Rect.block (s := S2x8x25x512x512) S1x1x25x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x516x516.size a ≤ S2x8x516x516.size a
  hwx0_1 : ∀ i : grid0.Coords, EltTy.bits .f32 = 32 ∨ (Rect.block (s := S2x8x516x516) S1x1x516x516.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x512.size a ≤ S2x8x512x512.size a
  hwx0_2 : ∀ i : grid0.Coords, EltTy.bits .f32 = 32 ∨ (Rect.block (s := S2x8x512x512) S1x1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x512.size a ≤ S2x8x512x512.size a
  hwx0_3 : ∀ i : grid0.Coords, EltTy.bits .f32 = 32 ∨ (Rect.block (s := S2x8x512x512) S1x1x256x512.size (cc0_transform_3 i) (hinb0_3 i)).WholeWords (EltTy.packing .f32)

variable [Facts₀]

abbrev win0_0 : Pipeline.Window sig grid0 :=
  Pipeline.Window.ofSpec (Memref.whole main_v1) S1x1x25x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x516x516.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x512x512 : Shape := ⟨4, ![2, 8, 512, 512]⟩
abbrev S2x200x512x512 : Shape := ⟨4, ![2, 200, 512, 512]⟩
abbrev S_ : Shape := ⟨0, ![]⟩
abbrev S2x8x516x516 : Shape := ⟨4, ![2, 8, 516, 516]⟩
abbrev S2x8x1x512x512 : Shape := ⟨5, ![2, 8, 1, 512, 512]⟩
abbrev S2x8x16x512x512 : Shape := ⟨5, ![2, 8, 16, 512, 512]⟩
abbrev S2x8x9x512x512 : Shape := ⟨5, ![2, 8, 9, 512, 512]⟩
abbrev S2x8x25x512x512 : Shape := ⟨5, ![2, 8, 25, 512, 512]⟩

abbrev nBuf : Space → Nat
  | .hbm => 64
  | .vmem => 0
  | .smem => 0
  | _ => 0

abbrev bufTy : (tb : Table) → Fin (tcTables nBuf tb) → BufTy
  | .hbm, ⟨0, _⟩ => ⟨S2x8x512x512, .f32⟩
  | .hbm, ⟨1, _⟩ => ⟨S2x200x512x512, .f32⟩
  | .hbm, ⟨2, _⟩ => ⟨S2x8x512x512, .f32⟩
  | .hbm, ⟨3, _⟩ => ⟨S_, .i32⟩
  | .hbm, ⟨4, _⟩ => ⟨S_, .f32⟩
  | .hbm, ⟨5, _⟩ => ⟨S2x8x516x516, .f32⟩
  | .hbm, ⟨6, _⟩ => ⟨S2x8x512x512, .f32⟩
  | .hbm, ⟨7, _⟩ => ⟨S2x8x512x512, .f32⟩
  | .hbm, ⟨8, _⟩ => ⟨S2x8x512x512, .f32⟩
  | .hbm, ⟨9, _⟩ => ⟨S2x8x512x512, .f32⟩
  | .hbm, ⟨10, _⟩ => ⟨S2x8x512x512, .f32⟩
  | .hbm, ⟨11, _⟩ => ⟨S2x8x512x512, .f32⟩
  | .hbm, ⟨12, _⟩ => ⟨S2x8x512x512, .f32⟩
  | .hbm, ⟨13, _⟩ => ⟨S2x8x512x512, .f32⟩
  | .hbm, ⟨14, _⟩ => ⟨S2x8x512x512, .f32⟩
  | .hbm, ⟨15, _⟩ => ⟨S2x8x512x512, .f32⟩
  | .hbm, ⟨16, _⟩ => ⟨S2x8x512x512, .f32⟩
  | .hbm, ⟨17, _⟩ => ⟨S2x8x512x512, .f32⟩
  | .hbm, ⟨18, _⟩ => ⟨S2x8x512x512, .f32⟩
  | .hbm, ⟨19, _⟩ => ⟨S2x8x512x512, .f32⟩
  | .hbm, ⟨20, _⟩ => ⟨S2x8x512x512, .f32⟩
  | .hbm, ⟨21, _⟩ => ⟨S2x8x512x512, .f32⟩
  | .hbm, ⟨22, _⟩ => ⟨S2x8x512x512, .f32⟩
  | .hbm, ⟨23, _⟩ => ⟨S2x8x512x512, .f32⟩
  | .hbm, ⟨24, _⟩ => ⟨S2x8x512x512, .f32⟩
  | .hbm, ⟨25, _⟩ => ⟨S2x8x512x512, .f32⟩
  | .hbm, ⟨26, _⟩ => ⟨S2x8x512x512, .f32⟩
  | .hbm, ⟨27, _⟩ => ⟨S2x8x512x512, .f32⟩
  | .hbm, ⟨28, _⟩ => ⟨S2x8x512x512, .f32⟩
  | .hbm, ⟨29, _⟩ => ⟨S2x8x512x512, .f32⟩
  | .hbm, ⟨30, _⟩ => ⟨S2x8x512x512, .f32⟩
  | .hbm, ⟨31, _⟩ => ⟨S2x8x1x512x512, .f32⟩
  | .hbm, ⟨32, _⟩ => ⟨S2x8x1x512x512, .f32⟩
  | .hbm, ⟨33, _⟩ => ⟨S2x8x1x512x512, .f32⟩
  | .hbm, ⟨34, _⟩ => ⟨S2x8x1x512x512, .f32⟩
  | .hbm, ⟨35, _⟩ => ⟨S2x8x1x512x512, .f32⟩
  | .hbm, ⟨36, _⟩ => ⟨S2x8x1x512x512, .f32⟩
  | .hbm, ⟨37, _⟩ => ⟨S2x8x1x512x512, .f32⟩
  | .hbm, ⟨38, _⟩ => ⟨S2x8x1x512x512, .f32⟩
  | .hbm, ⟨39, _⟩ => ⟨S2x8x1x512x512, .f32⟩
  | .hbm, ⟨40, _⟩ => ⟨S2x8x1x512x512, .f32⟩
  | .hbm, ⟨41, _⟩ => ⟨S2x8x1x512x512, .f32⟩
  | .hbm, ⟨42, _⟩ => ⟨S2x8x1x512x512, .f32⟩
  | .hbm, ⟨43, _⟩ => ⟨S2x8x1x512x512, .f32⟩
  | .hbm, ⟨44, _⟩ => ⟨S2x8x1x512x512, .f32⟩
  | .hbm, ⟨45, _⟩ => ⟨S2x8x1x512x512, .f32⟩
  | .hbm, ⟨46, _⟩ => ⟨S2x8x1x512x512, .f32⟩
  | .hbm, ⟨47, _⟩ => ⟨S2x8x1x512x512, .f32⟩
  | .hbm, ⟨48, _⟩ => ⟨S2x8x1x512x512, .f32⟩
  | .hbm, ⟨49, _⟩ => ⟨S2x8x1x512x512, .f32⟩
  | .hbm, ⟨50, _⟩ => ⟨S2x8x1x512x512, .f32⟩
  | .hbm, ⟨51, _⟩ => ⟨S2x8x1x512x512, .f32⟩
  | .hbm, ⟨52, _⟩ => ⟨S2x8x1x512x512, .f32⟩
  | .hbm, ⟨53, _⟩ => ⟨S2x8x1x512x512, .f32⟩
  | .hbm, ⟨54, _⟩ => ⟨S2x8x1x512x512, .f32⟩
  | .hbm, ⟨55, _⟩ => ⟨S2x8x1x512x512, .f32⟩
  | .hbm, ⟨56, _⟩ => ⟨S2x8x16x512x512, .f32⟩
  | .hbm, ⟨57, _⟩ => ⟨S2x8x9x512x512, .f32⟩
  | .hbm, ⟨58, _⟩ => ⟨S2x8x25x512x512, .f32⟩
  | .hbm, ⟨59, _⟩ => ⟨S2x8x25x512x512, .f32⟩
  | .hbm, ⟨60, _⟩ => ⟨S2x8x25x512x512, .f32⟩
  | .hbm, ⟨61, _⟩ => ⟨S_, .f32⟩
  | .hbm, ⟨62, _⟩ => ⟨S2x8x512x512, .f32⟩
  | .hbm, ⟨63, _⟩ => ⟨S2x8x512x512, .f32⟩
  | _, _ => ⟨S2x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_cst : Ref sig .tc := ⟨.hbm, 61, rfl⟩
abbrev main_v56 : Ref sig .tc := ⟨.hbm, 62, rfl⟩
abbrev main_v57 : Ref sig .tc := ⟨.hbm, 63, rfl⟩

abbrev nD : Nat := 1
abbrev τ : Topo := Topo.v7x

variable {F : FTy → Type} [FloatOps F]

class Facts₀ : Prop where
  pads_S2x8x512x512_S2x8x516x516_000_000_220_220 : S2x8x512x512.Pads (![0, 0, 2, 2] : Fin 4 → Nat) ![0, 0, 2, 2] ![0, 0, 0, 0] S2x8x516x516
  h_S_ : 0 < S_.numel
  slices_S2x8x516x516_S2x8x512x512_0_0_0_0 : S2x8x516x516.Slices ![0, 0, 0, 0] S2x8x512x512
  slices_S2x8x516x516_S2x8x512x512_0_0_0_1 : S2x8x516x516.Slices ![0, 0, 0, 1] S2x8x512x512
  slices_S2x8x516x516_S2x8x512x512_0_0_0_2 : S2x8x516x516.Slices ![0, 0, 0, 2] S2x8x512x512
  slices_S2x8x516x516_S2x8x512x512_0_0_0_3 : S2x8x516x516.Slices ![0, 0, 0, 3] S2x8x512x512
  slices_S2x8x516x516_S2x8x512x512_0_0_0_4 : S2x8x516x516.Slices ![0, 0, 0, 4] S2x8x512x512
  slices_S2x8x516x516_S2x8x512x512_0_0_1_0 : S2x8x516x516.Slices ![0, 0, 1, 0] S2x8x512x512
  slices_S2x8x516x516_S2x8x512x512_0_0_1_1 : S2x8x516x516.Slices ![0, 0, 1, 1] S2x8x512x512
  slices_S2x8x516x516_S2x8x512x512_0_0_1_2 : S2x8x516x516.Slices ![0, 0, 1, 2] S2x8x512x512
  slices_S2x8x516x516_S2x8x512x512_0_0_1_3 : S2x8x516x516.Slices ![0, 0, 1, 3] S2x8x512x512
  slices_S2x8x516x516_S2x8x512x512_0_0_1_4 : S2x8x516x516.Slices ![0, 0, 1, 4] S2x8x512x512
  slices_S2x8x516x516_S2x8x512x512_0_0_2_0 : S2x8x516x516.Slices ![0, 0, 2, 0] S2x8x512x512
  slices_S2x8x516x516_S2x8x512x512_0_0_2_1 : S2x8x516x516.Slices ![0, 0, 2, 1] S2x8x512x512
  slices_S2x8x516x516_S2x8x512x512_0_0_2_2 : S2x8x516x516.Slices ![0, 0, 2, 2] S2x8x512x512
  slices_S2x8x516x516_S2x8x512x512_0_0_2_3 : S2x8x516x516.Slices ![0, 0, 2, 3] S2x8x512x512
  slices_S2x8x516x516_S2x8x512x512_0_0_2_4 : S2x8x516x516.Slices ![0, 0, 2, 4] S2x8x512x512
  slices_S2x8x516x516_S2x8x512x512_0_0_3_0 : S2x8x516x516.Slices ![0, 0, 3, 0] S2x8x512x512
  slices_S2x8x516x516_S2x8x512x512_0_0_3_1 : S2x8x516x516.Slices ![0, 0, 3, 1] S2x8x512x512
  slices_S2x8x516x516_S2x8x512x512_0_0_3_2 : S2x8x516x516.Slices ![0, 0, 3, 2] S2x8x512x512
  slices_S2x8x516x516_S2x8x512x512_0_0_3_3 : S2x8x516x516.Slices ![0, 0, 3, 3] S2x8x512x512
  slices_S2x8x516x516_S2x8x512x512_0_0_3_4 : S2x8x516x516.Slices ![0, 0, 3, 4] S2x8x512x512
  slices_S2x8x516x516_S2x8x512x512_0_0_4_0 : S2x8x516x516.Slices ![0, 0, 4, 0] S2x8x512x512
  slices_S2x8x516x516_S2x8x512x512_0_0_4_1 : S2x8x516x516.Slices ![0, 0, 4, 1] S2x8x512x512
  slices_S2x8x516x516_S2x8x512x512_0_0_4_2 : S2x8x516x516.Slices ![0, 0, 4, 2] S2x8x512x512
  slices_S2x8x516x516_S2x8x512x512_0_0_4_3 : S2x8x516x516.Slices ![0, 0, 4, 3] S2x8x512x512
  slices_S2x8x516x516_S2x8x512x512_0_0_4_4 : S2x8x516x516.Slices ![0, 0, 4, 4] S2x8x512x512
  bcast_S2x8x512x512_S2x8x1x512x512_0_1_3_4 : S2x8x512x512.BroadcastsInDim S2x8x1x512x512 (![0, 1, 3, 4] : Fin 4 → Fin S2x8x1x512x512.rank)
  concatenates_S2x8x1x512x512_S2x8x1x512x512_S2x8x1x512x512_S2x8x1x512x512_S2x8x1x512x512_S2x8x1x512x512_S2x8x1x512x512_S2x8x1x512x512_S2x8x1x512x512_S2x8x1x512x512_S2x8x1x512x512_S2x8x1x512x512_S2x8x1x512x512_S2x8x1x512x512_S2x8x1x512x512_S2x8x1x512x512_S2x8x16x512x512_d2 : Shape.Concatenates [S2x8x1x512x512, S2x8x1x512x512, S2x8x1x512x512, S2x8x1x512x512, S2x8x1x512x512, S2x8x1x512x512, S2x8x1x512x512, S2x8x1x512x512, S2x8x1x512x512, S2x8x1x512x512, S2x8x1x512x512, S2x8x1x512x512, S2x8x1x512x512, S2x8x1x512x512, S2x8x1x512x512, S2x8x1x512x512] S2x8x16x512x512 2
  concatenates_S2x8x1x512x512_S2x8x1x512x512_S2x8x1x512x512_S2x8x1x512x512_S2x8x1x512x512_S2x8x1x512x512_S2x8x1x512x512_S2x8x1x512x512_S2x8x1x512x512_S2x8x9x512x512_d2 : Shape.Concatenates [S2x8x1x512x512, S2x8x1x512x512, S2x8x1x512x512, S2x8x1x512x512, S2x8x1x512x512, S2x8x1x512x512, S2x8x1x512x512, S2x8x1x512x512, S2x8x1x512x512] S2x8x9x512x512 2
  concatenates_S2x8x16x512x512_S2x8x9x512x512_S2x8x25x512x512_d2 : Shape.Concatenates [S2x8x16x512x512, S2x8x9x512x512] S2x8x25x512x512 2
  shapeCasts_S2x200x512x512_S2x8x25x512x512 : S2x200x512x512.ShapeCasts S2x8x25x512x512
  reducesTo_S2x8x25x512x512_S2x8x512x512_d2 : S2x8x25x512x512.ReducesTo [2] S2x8x512x512

variable [Facts₀]

class Facts : Prop extends Facts₀ where

variable [Facts]
-- ==== Proof.TapSum.lean ====
/-
  The per-pixel five-by-five weighted sum.

  Both programs compute, for every image `b`, channel `n` and pixel `(y, x)`,

      out (b, n, y, x) = W (b, n, y, x) · ∑_{k < 25} C (b, n, k, y, x) · P (b, n, y + k / 5, x + k % 5)

  where `C` is the stack of 25 per-pixel weight planes of channel `n` and `P` is the frame with a
  border of two zeros on each side of both spatial axes, so that `P (b, n, y + i, x + j)` is the frame at
  `(y + i - 2, x + j - 2)` or zero outside it.  This module states that function over arbitrary arrays
  `C`, `P`, `W` of extended reals and shows that adding the 25 products one after the other onto
  zero, in the order of `k`, gives the same value as the sum over `k`: addition of extended reals is
  associative and commutative, so the order and grouping of the additions do not matter.
-/
import Idealize.ShloMosaic.PureOps.Ideal
import Idealize.ShloMosaic.Lib.ValueIdx

noncomputable section

namespace Cert.TapSum

open Idealize.ShloMosaic Idealize.ShloMosaic.ValueIdx

/-- The shape of the frames, of the pixel weights `W` and of the result. -/
abbrev SOut : Shape := ⟨4, ![2, 8, 512, 512]⟩
/-- The shape of the frames with the border of two on each side. -/
abbrev SPad : Shape := ⟨4, ![2, 8, 516, 516]⟩
/-- The shape of the stack of 25 weight planes per channel. -/
abbrev STaps : Shape := ⟨5, ![2, 8, 25, 512, 512]⟩

/-- Where tap `k` of pixel `i` sits in the stack of weight planes: plane `k`, same image, channel and pixel. -/
def tapIdx (i : SOut.Idx) (k : Fin 25) : STaps.Idx :=
  ix5 (n0 := 2) (n1 := 8) (n2 := 25) (n3 := 512) (n4 := 512) (i 0) (i 1) k (i 2) (i 3)

/-- Where tap `k` of pixel `i` reads the bordered frame: `k / 5` rows down and `k % 5` columns right of `i`. -/
def shiftIdx (i : SOut.Idx) (k : Fin 25) : SPad.Idx :=
  ix4 (n0 := 2) (n1 := 8) (n2 := 516) (n3 := 516) (i 0) (i 1)
    ⟨(i 2).val + k.val / 5, by have h2 : (i 2).val < 512 := (i 2).isLt; have hk := k.isLt; omega⟩
    ⟨(i 3).val + k.val % 5, by have h3 : (i 3).val < 512 := (i 3).isLt; have hk := k.isLt; omega⟩

/-- The weighted sum of the 25 taps of every pixel, times the pixel's weight. -/
def tapSum (C : STaps.Idx → EReal) (P : SPad.Idx → EReal) (W : SOut.Idx → EReal) : SOut.Idx → EReal :=
  fun i => W i * ∑ k : Fin 25, C (tapIdx i k) * P (shiftIdx i k)

/-- Twenty-five terms added one after the other onto zero are their sum. -/
theorem chain_eq_sum (f : Fin 25 → EReal) :
    ((((((((((((((((((((((((0 + f 0) + f 1) + f 2) + f 3) + f 4) + f 5) + f 6) + f 7) + f 8) + f 9) + f 10) + f 11) + f 12) + f 13) + f 14) + f 15) + f 16) + f 17) + f 18) + f 19) + f 20) + f 21) + f 22) + f 23) + f 24 = ∑ k : Fin 25, f k := by
  simp only [Fin.sum_univ_castSucc, Fin.sum_univ_zero]
  rfl

end Cert.TapSum

end
-- ==== Proof.RefTaps.lean ====
/-
  The host program computes the per-pixel five-by-five weighted sum.

  It borders the frames with two zeros on each side, takes the 25 windows of the bordered frame shifted
  `k / 5` rows down and `k % 5` columns right (`k = 0 … 24`), stacks them along a new axis (sixteen
  planes, then nine, then the two stacks end to end), multiplies the stack entry by entry with the 25
  weight planes, adds the 25 products of every pixel onto zero, and multiplies by the pixel's weight.
  Read at a pixel: plane `k` of the stack at `(b, n, y, x)` is the bordered frame at
  `(b, n, y + k / 5, x + k % 5)`, so the result is the weighted sum of `TapSum`.
-/
import proofs.«126246_j11261404250772_1_alg».proof.Proof.Gen.ReferenceIdeal.Read
import proofs.«126246_j11261404250772_1_alg».proof.Proof.TapSum
import Idealize.ShloMosaic.Lib.Pipeline.Value
import Idealize.ShloMosaic.Lib.ValueIdx
import Idealize.ShloMosaic.PureOps.Ideal.Laws

noncomputable section

namespace Cert.ReferenceIdeal.Taps

open Cert.ReferenceIdeal Cert.ReferenceIdeal.Gen Cert.ReferenceIdeal.Read Cert.TapSum
open Idealize.ShloMosaic Idealize.ShloMosaic.ValueIdx

variable (x0 : (⟨S2x8x512x512, .f32⟩ : BufTy).Contents (Elt Ideal))

/-- Plane 0 of the stack of shifted views is the bordered frame 0 rows down and 0 columns right. -/
theorem patch_0 (p : S2x8x512x512.Idx) :
    val_main_v53 (F := Ideal) x0 (tapIdx p ⟨0, by decide⟩) = val_main_v0 (F := Ideal) x0 (shiftIdx p ⟨0, by decide⟩) := by
  unfold val_main_v53
  rw [concatenate_pair_apply_left (2 : Fin 5) (val_main_v51 (F := Ideal) x0) (val_main_v52 (F := Ideal) x0) _ (tapIdx p ⟨0, by decide⟩) rfl
      (ix5 (n0 := 2) (n1 := 8) (n2 := 16) (n3 := 512) (n4 := 512) (p 0) (p 1) ⟨0, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 0 (by show (0 : Nat) < 16; decide) S2x8x1x512x512 (val_main_v26 (F := Ideal) x0) rfl rfl 0 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v26_apply, val_main_v1_apply]
  refine congrArg (val_main_v0 (F := Ideal) x0) (funext fun a => Fin.ext ?_)
  match a with
  | ⟨0, _⟩ => rfl
  | ⟨1, _⟩ => rfl
  | ⟨2, _⟩ => show (p 2).val = (p 2).val + 0; omega
  | ⟨3, _⟩ => show (p 3).val = (p 3).val + 0; omega

/-- Plane 1 of the stack of shifted views is the bordered frame 0 rows down and 1 column right. -/
theorem patch_1 (p : S2x8x512x512.Idx) :
    val_main_v53 (F := Ideal) x0 (tapIdx p ⟨1, by decide⟩) = val_main_v0 (F := Ideal) x0 (shiftIdx p ⟨1, by decide⟩) := by
  unfold val_main_v53
  rw [concatenate_pair_apply_left (2 : Fin 5) (val_main_v51 (F := Ideal) x0) (val_main_v52 (F := Ideal) x0) _ (tapIdx p ⟨1, by decide⟩) rfl
      (ix5 (n0 := 2) (n1 := 8) (n2 := 16) (n3 := 512) (n4 := 512) (p 0) (p 1) ⟨1, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 1 (by show (1 : Nat) < 16; decide) S2x8x1x512x512 (val_main_v27 (F := Ideal) x0) rfl rfl 1 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v27_apply, val_main_v2_apply]
  refine congrArg (val_main_v0 (F := Ideal) x0) (funext fun a => Fin.ext ?_)
  match a with
  | ⟨0, _⟩ => rfl
  | ⟨1, _⟩ => rfl
  | ⟨2, _⟩ => show (p 2).val = (p 2).val + 0; omega
  | ⟨3, _⟩ => show 1 + (p 3).val = (p 3).val + 1; omega

/-- Plane 2 of the stack of shifted views is the bordered frame 0 rows down and 2 columns right. -/
theorem patch_2 (p : S2x8x512x512.Idx) :
    val_main_v53 (F := Ideal) x0 (tapIdx p ⟨2, by decide⟩) = val_main_v0 (F := Ideal) x0 (shiftIdx p ⟨2, by decide⟩) := by
  unfold val_main_v53
  rw [concatenate_pair_apply_left (2 : Fin 5) (val_main_v51 (F := Ideal) x0) (val_main_v52 (F := Ideal) x0) _ (tapIdx p ⟨2, by decide⟩) rfl
      (ix5 (n0 := 2) (n1 := 8) (n2 := 16) (n3 := 512) (n4 := 512) (p 0) (p 1) ⟨2, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 2 (by show (2 : Nat) < 16; decide) S2x8x1x512x512 (val_main_v28 (F := Ideal) x0) rfl rfl 2 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v28_apply, val_main_v3_apply]
  refine congrArg (val_main_v0 (F := Ideal) x0) (funext fun a => Fin.ext ?_)
  match a with
  | ⟨0, _⟩ => rfl
  | ⟨1, _⟩ => rfl
  | ⟨2, _⟩ => show (p 2).val = (p 2).val + 0; omega
  | ⟨3, _⟩ => show 2 + (p 3).val = (p 3).val + 2; omega

/-- Plane 3 of the stack of shifted views is the bordered frame 0 rows down and 3 columns right. -/
theorem patch_3 (p : S2x8x512x512.Idx) :
    val_main_v53 (F := Ideal) x0 (tapIdx p ⟨3, by decide⟩) = val_main_v0 (F := Ideal) x0 (shiftIdx p ⟨3, by decide⟩) := by
  unfold val_main_v53
  rw [concatenate_pair_apply_left (2 : Fin 5) (val_main_v51 (F := Ideal) x0) (val_main_v52 (F := Ideal) x0) _ (tapIdx p ⟨3, by decide⟩) rfl
      (ix5 (n0 := 2) (n1 := 8) (n2 := 16) (n3 := 512) (n4 := 512) (p 0) (p 1) ⟨3, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 3 (by show (3 : Nat) < 16; decide) S2x8x1x512x512 (val_main_v29 (F := Ideal) x0) rfl rfl 3 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v29_apply, val_main_v4_apply]
  refine congrArg (val_main_v0 (F := Ideal) x0) (funext fun a => Fin.ext ?_)
  match a with
  | ⟨0, _⟩ => rfl
  | ⟨1, _⟩ => rfl
  | ⟨2, _⟩ => show (p 2).val = (p 2).val + 0; omega
  | ⟨3, _⟩ => show 3 + (p 3).val = (p 3).val + 3; omega

/-- Plane 4 of the stack of shifted views is the bordered frame 0 rows down and 4 columns right. -/
theorem patch_4 (p : S2x8x512x512.Idx) :
    val_main_v53 (F := Ideal) x0 (tapIdx p ⟨4, by decide⟩) = val_main_v0 (F := Ideal) x0 (shiftIdx p ⟨4, by decide⟩) := by
  unfold val_main_v53
  rw [concatenate_pair_apply_left (2 : Fin 5) (val_main_v51 (F := Ideal) x0) (val_main_v52 (F := Ideal) x0) _ (tapIdx p ⟨4, by decide⟩) rfl
      (ix5 (n0 := 2) (n1 := 8) (n2 := 16) (n3 := 512) (n4 := 512) (p 0) (p 1) ⟨4, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 4 (by show (4 : Nat) < 16; decide) S2x8x1x512x512 (val_main_v30 (F := Ideal) x0) rfl rfl 4 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v30_apply, val_main_v5_apply]
  refine congrArg (val_main_v0 (F := Ideal) x0) (funext fun a => Fin.ext ?_)
  match a with
  | ⟨0, _⟩ => rfl
  | ⟨1, _⟩ => rfl
  | ⟨2, _⟩ => show (p 2).val = (p 2).val + 0; omega
  | ⟨3, _⟩ => show 4 + (p 3).val = (p 3).val + 4; omega

/-- Plane 5 of the stack of shifted views is the bordered frame 1 row down and 0 columns right. -/
theorem patch_5 (p : S2x8x512x512.Idx) :
    val_main_v53 (F := Ideal) x0 (tapIdx p ⟨5, by decide⟩) = val_main_v0 (F := Ideal) x0 (shiftIdx p ⟨5, by decide⟩) := by
  unfold val_main_v53
  rw [concatenate_pair_apply_left (2 : Fin 5) (val_main_v51 (F := Ideal) x0) (val_main_v52 (F := Ideal) x0) _ (tapIdx p ⟨5, by decide⟩) rfl
      (ix5 (n0 := 2) (n1 := 8) (n2 := 16) (n3 := 512) (n4 := 512) (p 0) (p 1) ⟨5, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 5 (by show (5 : Nat) < 16; decide) S2x8x1x512x512 (val_main_v31 (F := Ideal) x0) rfl rfl 5 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v31_apply, val_main_v6_apply]
  refine congrArg (val_main_v0 (F := Ideal) x0) (funext fun a => Fin.ext ?_)
  match a with
  | ⟨0, _⟩ => rfl
  | ⟨1, _⟩ => rfl
  | ⟨2, _⟩ => show 1 + (p 2).val = (p 2).val + 1; omega
  | ⟨3, _⟩ => show (p 3).val = (p 3).val + 0; omega

/-- Plane 6 of the stack of shifted views is the bordered frame 1 row down and 1 column right. -/
theorem patch_6 (p : S2x8x512x512.Idx) :
    val_main_v53 (F := Ideal) x0 (tapIdx p ⟨6, by decide⟩) = val_main_v0 (F := Ideal) x0 (shiftIdx p ⟨6, by decide⟩) := by
  unfold val_main_v53
  rw [concatenate_pair_apply_left (2 : Fin 5) (val_main_v51 (F := Ideal) x0) (val_main_v52 (F := Ideal) x0) _ (tapIdx p ⟨6, by decide⟩) rfl
      (ix5 (n0 := 2) (n1 := 8) (n2 := 16) (n3 := 512) (n4 := 512) (p 0) (p 1) ⟨6, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 6 (by show (6 : Nat) < 16; decide) S2x8x1x512x512 (val_main_v32 (F := Ideal) x0) rfl rfl 6 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v32_apply, val_main_v7_apply]
  refine congrArg (val_main_v0 (F := Ideal) x0) (funext fun a => Fin.ext ?_)
  match a with
  | ⟨0, _⟩ => rfl
  | ⟨1, _⟩ => rfl
  | ⟨2, _⟩ => show 1 + (p 2).val = (p 2).val + 1; omega
  | ⟨3, _⟩ => show 1 + (p 3).val = (p 3).val + 1; omega

/-- Plane 7 of the stack of shifted views is the bordered frame 1 row down and 2 columns right. -/
theorem patch_7 (p : S2x8x512x512.Idx) :
    val_main_v53 (F := Ideal) x0 (tapIdx p ⟨7, by decide⟩) = val_main_v0 (F := Ideal) x0 (shiftIdx p ⟨7, by decide⟩) := by
  unfold val_main_v53
  rw [concatenate_pair_apply_left (2 : Fin 5) (val_main_v51 (F := Ideal) x0) (val_main_v52 (F := Ideal) x0) _ (tapIdx p ⟨7, by decide⟩) rfl
      (ix5 (n0 := 2) (n1 := 8) (n2 := 16) (n3 := 512) (n4 := 512) (p 0) (p 1) ⟨7, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 7 (by show (7 : Nat) < 16; decide) S2x8x1x512x512 (val_main_v33 (F := Ideal) x0) rfl rfl 7 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v33_apply, val_main_v8_apply]
  refine congrArg (val_main_v0 (F := Ideal) x0) (funext fun a => Fin.ext ?_)
  match a with
  | ⟨0, _⟩ => rfl
  | ⟨1, _⟩ => rfl
  | ⟨2, _⟩ => show 1 + (p 2).val = (p 2).val + 1; omega
  | ⟨3, _⟩ => show 2 + (p 3).val = (p 3).val + 2; omega

/-- Plane 8 of the stack of shifted views is the bordered frame 1 row down and 3 columns right. -/
theorem patch_8 (p : S2x8x512x512.Idx) :
    val_main_v53 (F := Ideal) x0 (tapIdx p ⟨8, by decide⟩) = val_main_v0 (F := Ideal) x0 (shiftIdx p ⟨8, by decide⟩) := by
  unfold val_main_v53
  rw [concatenate_pair_apply_left (2 : Fin 5) (val_main_v51 (F := Ideal) x0) (val_main_v52 (F := Ideal) x0) _ (tapIdx p ⟨8, by decide⟩) rfl
      (ix5 (n0 := 2) (n1 := 8) (n2 := 16) (n3 := 512) (n4 := 512) (p 0) (p 1) ⟨8, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 8 (by show (8 : Nat) < 16; decide) S2x8x1x512x512 (val_main_v34 (F := Ideal) x0) rfl rfl 8 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v34_apply, val_main_v9_apply]
  refine congrArg (val_main_v0 (F := Ideal) x0) (funext fun a => Fin.ext ?_)
  match a with
  | ⟨0, _⟩ => rfl
  | ⟨1, _⟩ => rfl
  | ⟨2, _⟩ => show 1 + (p 2).val = (p 2).val + 1; omega
  | ⟨3, _⟩ => show 3 + (p 3).val = (p 3).val + 3; omega

/-- Plane 9 of the stack of shifted views is the bordered frame 1 row down and 4 columns right. -/
theorem patch_9 (p : S2x8x512x512.Idx) :
    val_main_v53 (F := Ideal) x0 (tapIdx p ⟨9, by decide⟩) = val_main_v0 (F := Ideal) x0 (shiftIdx p ⟨9, by decide⟩) := by
  unfold val_main_v53
  rw [concatenate_pair_apply_left (2 : Fin 5) (val_main_v51 (F := Ideal) x0) (val_main_v52 (F := Ideal) x0) _ (tapIdx p ⟨9, by decide⟩) rfl
      (ix5 (n0 := 2) (n1 := 8) (n2 := 16) (n3 := 512) (n4 := 512) (p 0) (p 1) ⟨9, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 9 (by show (9 : Nat) < 16; decide) S2x8x1x512x512 (val_main_v35 (F := Ideal) x0) rfl rfl 9 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v35_apply, val_main_v10_apply]
  refine congrArg (val_main_v0 (F := Ideal) x0) (funext fun a => Fin.ext ?_)
  match a with
  | ⟨0, _⟩ => rfl
  | ⟨1, _⟩ => rfl
  | ⟨2, _⟩ => show 1 + (p 2).val = (p 2).val + 1; omega
  | ⟨3, _⟩ => show 4 + (p 3).val = (p 3).val + 4; omega

/-- Plane 10 of the stack of shifted views is the bordered frame 2 rows down and 0 columns right. -/
theorem patch_10 (p : S2x8x512x512.Idx) :
    val_main_v53 (F := Ideal) x0 (tapIdx p ⟨10, by decide⟩) = val_main_v0 (F := Ideal) x0 (shiftIdx p ⟨10, by decide⟩) := by
  unfold val_main_v53
  rw [concatenate_pair_apply_left (2 : Fin 5) (val_main_v51 (F := Ideal) x0) (val_main_v52 (F := Ideal) x0) _ (tapIdx p ⟨10, by decide⟩) rfl
      (ix5 (n0 := 2) (n1 := 8) (n2 := 16) (n3 := 512) (n4 := 512) (p 0) (p 1) ⟨10, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 10 (by show (10 : Nat) < 16; decide) S2x8x1x512x512 (val_main_v36 (F := Ideal) x0) rfl rfl 10 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v36_apply, val_main_v11_apply]
  refine congrArg (val_main_v0 (F := Ideal) x0) (funext fun a => Fin.ext ?_)
  match a with
  | ⟨0, _⟩ => rfl
  | ⟨1, _⟩ => rfl
  | ⟨2, _⟩ => show 2 + (p 2).val = (p 2).val + 2; omega
  | ⟨3, _⟩ => show (p 3).val = (p 3).val + 0; omega

-- the count of the planes before this one is found by evaluating the list of pieces, which is long here
set_option maxHeartbeats 1600000 in
/-- Plane 11 of the stack of shifted views is the bordered frame 2 rows down and 1 column right. -/
theorem patch_11 (p : S2x8x512x512.Idx) :
    val_main_v53 (F := Ideal) x0 (tapIdx p ⟨11, by decide⟩) = val_main_v0 (F := Ideal) x0 (shiftIdx p ⟨11, by decide⟩) := by
  unfold val_main_v53
  rw [concatenate_pair_apply_left (2 : Fin 5) (val_main_v51 (F := Ideal) x0) (val_main_v52 (F := Ideal) x0) _ (tapIdx p ⟨11, by decide⟩) rfl
      (ix5 (n0 := 2) (n1 := 8) (n2 := 16) (n3 := 512) (n4 := 512) (p 0) (p 1) ⟨11, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 11 (by show (11 : Nat) < 16; decide) S2x8x1x512x512 (val_main_v37 (F := Ideal) x0) rfl rfl 11 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v37_apply, val_main_v12_apply]
  refine congrArg (val_main_v0 (F := Ideal) x0) (funext fun a => Fin.ext ?_)
  match a with
  | ⟨0, _⟩ => rfl
  | ⟨1, _⟩ => rfl
  | ⟨2, _⟩ => show 2 + (p 2).val = (p 2).val + 2; omega
  | ⟨3, _⟩ => show 1 + (p 3).val = (p 3).val + 1; omega

-- the count of the planes before this one is found by evaluating the list of pieces, which is long here
set_option maxHeartbeats 1600000 in
/-- Plane 12 of the stack of shifted views is the bordered frame 2 rows down and 2 columns right. -/
theorem patch_12 (p : S2x8x512x512.Idx) :
    val_main_v53 (F := Ideal) x0 (tapIdx p ⟨12, by decide⟩) = val_main_v0 (F := Ideal) x0 (shiftIdx p ⟨12, by decide⟩) := by
  unfold val_main_v53
  rw [concatenate_pair_apply_left (2 : Fin 5) (val_main_v51 (F := Ideal) x0) (val_main_v52 (F := Ideal) x0) _ (tapIdx p ⟨12, by decide⟩) rfl
      (ix5 (n0 := 2) (n1 := 8) (n2 := 16) (n3 := 512) (n4 := 512) (p 0) (p 1) ⟨12, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 12 (by show (12 : Nat) < 16; decide) S2x8x1x512x512 (val_main_v38 (F := Ideal) x0) rfl rfl 12 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v38_apply, val_main_v13_apply]
  refine congrArg (val_main_v0 (F := Ideal) x0) (funext fun a => Fin.ext ?_)
  match a with
  | ⟨0, _⟩ => rfl
  | ⟨1, _⟩ => rfl
  | ⟨2, _⟩ => show 2 + (p 2).val = (p 2).val + 2; omega
  | ⟨3, _⟩ => show 2 + (p 3).val = (p 3).val + 2; omega

-- the count of the planes before this one is found by evaluating the list of pieces, which is long here
set_option maxHeartbeats 1600000 in
/-- Plane 13 of the stack of shifted views is the bordered frame 2 rows down and 3 columns right. -/
theorem patch_13 (p : S2x8x512x512.Idx) :
    val_main_v53 (F := Ideal) x0 (tapIdx p ⟨13, by decide⟩) = val_main_v0 (F := Ideal) x0 (shiftIdx p ⟨13, by decide⟩) := by
  unfold val_main_v53
  rw [concatenate_pair_apply_left (2 : Fin 5) (val_main_v51 (F := Ideal) x0) (val_main_v52 (F := Ideal) x0) _ (tapIdx p ⟨13, by decide⟩) rfl
      (ix5 (n0 := 2) (n1 := 8) (n2 := 16) (n3 := 512) (n4 := 512) (p 0) (p 1) ⟨13, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 13 (by show (13 : Nat) < 16; decide) S2x8x1x512x512 (val_main_v39 (F := Ideal) x0) rfl rfl 13 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v39_apply, val_main_v14_apply]
  refine congrArg (val_main_v0 (F := Ideal) x0) (funext fun a => Fin.ext ?_)
  match a with
  | ⟨0, _⟩ => rfl
  | ⟨1, _⟩ => rfl
  | ⟨2, _⟩ => show 2 + (p 2).val = (p 2).val + 2; omega
  | ⟨3, _⟩ => show 3 + (p 3).val = (p 3).val + 3; omega

-- the count of the planes before this one is found by evaluating the list of pieces, which is long here
set_option maxHeartbeats 1600000 in
/-- Plane 14 of the stack of shifted views is the bordered frame 2 rows down and 4 columns right. -/
theorem patch_14 (p : S2x8x512x512.Idx) :
    val_main_v53 (F := Ideal) x0 (tapIdx p ⟨14, by decide⟩) = val_main_v0 (F := Ideal) x0 (shiftIdx p ⟨14, by decide⟩) := by
  unfold val_main_v53
  rw [concatenate_pair_apply_left (2 : Fin 5) (val_main_v51 (F := Ideal) x0) (val_main_v52 (F := Ideal) x0) _ (tapIdx p ⟨14, by decide⟩) rfl
      (ix5 (n0 := 2) (n1 := 8) (n2 := 16) (n3 := 512) (n4 := 512) (p 0) (p 1) ⟨14, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 14 (by show (14 : Nat) < 16; decide) S2x8x1x512x512 (val_main_v40 (F := Ideal) x0) rfl rfl 14 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v40_apply, val_main_v15_apply]
  refine congrArg (val_main_v0 (F := Ideal) x0) (funext fun a => Fin.ext ?_)
  match a with
  | ⟨0, _⟩ => rfl
  | ⟨1, _⟩ => rfl
  | ⟨2, _⟩ => show 2 + (p 2).val = (p 2).val + 2; omega
  | ⟨3, _⟩ => show 4 + (p 3).val = (p 3).val + 4; omega

-- the count of the planes before this one is found by evaluating the list of pieces, which is long here
set_option maxHeartbeats 1600000 in
/-- Plane 15 of the stack of shifted views is the bordered frame 3 rows down and 0 columns right. -/
theorem patch_15 (p : S2x8x512x512.Idx) :
    val_main_v53 (F := Ideal) x0 (tapIdx p ⟨15, by decide⟩) = val_main_v0 (F := Ideal) x0 (shiftIdx p ⟨15, by decide⟩) := by
  unfold val_main_v53
  rw [concatenate_pair_apply_left (2 : Fin 5) (val_main_v51 (F := Ideal) x0) (val_main_v52 (F := Ideal) x0) _ (tapIdx p ⟨15, by decide⟩) rfl
      (ix5 (n0 := 2) (n1 := 8) (n2 := 16) (n3 := 512) (n4 := 512) (p 0) (p 1) ⟨15, by decide⟩ (p 2) (p 3))
      (fun b => match b with | ⟨0, _⟩ => rfl | ⟨1, _⟩ => rfl | ⟨2, _⟩ => rfl | ⟨3, _⟩ => rfl | ⟨4, _⟩ => rfl)]
  unfold val_main_v51
  rw [concatenate_apply_piece (t := S2x8x16x512x512) (2 : Fin 5) _ _ _ 15 (by show (15 : Nat) < 16; decide) S2x8x1x512x512 (val_main_v41 (F := Ideal) x0) rfl rfl 15 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v41_apply, val_main_v16_apply]
  refine congrArg (val_main_v0 (F := Ideal) x0) (funext fun a => Fin.ext ?_)
  match a with
  | ⟨0, _⟩ => rfl
  | ⟨1, _⟩ => rfl
  | ⟨2, _⟩ => show 3 + (p 2).val = (p 2).val + 3; omega
  | ⟨3, _⟩ => show (p 3).val = (p 3).val + 0; omega

/-- Plane 16 of the stack of shifted views is the bordered frame 3 rows down and 1 column right. -/
theorem patch_16 (p : S2x8x512x512.Idx) :
    val_main_v53 (F := Ideal) x0 (tapIdx p ⟨16, by decide⟩) = val_main_v0 (F := Ideal) x0 (shiftIdx p ⟨16, by decide⟩) := by
  unfold val_main_v53
  rw [concatenate_pair_apply_right (2 : Fin 5) (val_main_v51 (F := Ideal) x0) (val_main_v52 (F := Ideal) x0) _ (tapIdx p ⟨16, by decide⟩) rfl rfl
      (ix5 (n0 := 2) (n1 := 8) (n2 := 9) (n3 := 512) (n4 := 512) (p 0) (p 1) ⟨0, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 0 (by show (0 : Nat) < 9; decide) S2x8x1x512x512 (val_main_v42 (F := Ideal) x0) rfl rfl 0 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v42_apply, val_main_v17_apply]
  refine congrArg (val_main_v0 (F := Ideal) x0) (funext fun a => Fin.ext ?_)
  match a with
  | ⟨0, _⟩ => rfl
  | ⟨1, _⟩ => rfl
  | ⟨2, _⟩ => show 3 + (p 2).val = (p 2).val + 3; omega
  | ⟨3, _⟩ => show 1 + (p 3).val = (p 3).val + 1; omega

/-- Plane 17 of the stack of shifted views is the bordered frame 3 rows down and 2 columns right. -/
theorem patch_17 (p : S2x8x512x512.Idx) :
    val_main_v53 (F := Ideal) x0 (tapIdx p ⟨17, by decide⟩) = val_main_v0 (F := Ideal) x0 (shiftIdx p ⟨17, by decide⟩) := by
  unfold val_main_v53
  rw [concatenate_pair_apply_right (2 : Fin 5) (val_main_v51 (F := Ideal) x0) (val_main_v52 (F := Ideal) x0) _ (tapIdx p ⟨17, by decide⟩) rfl rfl
      (ix5 (n0 := 2) (n1 := 8) (n2 := 9) (n3 := 512) (n4 := 512) (p 0) (p 1) ⟨1, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 1 (by show (1 : Nat) < 9; decide) S2x8x1x512x512 (val_main_v43 (F := Ideal) x0) rfl rfl 1 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v43_apply, val_main_v18_apply]
  refine congrArg (val_main_v0 (F := Ideal) x0) (funext fun a => Fin.ext ?_)
  match a with
  | ⟨0, _⟩ => rfl
  | ⟨1, _⟩ => rfl
  | ⟨2, _⟩ => show 3 + (p 2).val = (p 2).val + 3; omega
  | ⟨3, _⟩ => show 2 + (p 3).val = (p 3).val + 2; omega

/-- Plane 18 of the stack of shifted views is the bordered frame 3 rows down and 3 columns right. -/
theorem patch_18 (p : S2x8x512x512.Idx) :
    val_main_v53 (F := Ideal) x0 (tapIdx p ⟨18, by decide⟩) = val_main_v0 (F := Ideal) x0 (shiftIdx p ⟨18, by decide⟩) := by
  unfold val_main_v53
  rw [concatenate_pair_apply_right (2 : Fin 5) (val_main_v51 (F := Ideal) x0) (val_main_v52 (F := Ideal) x0) _ (tapIdx p ⟨18, by decide⟩) rfl rfl
      (ix5 (n0 := 2) (n1 := 8) (n2 := 9) (n3 := 512) (n4 := 512) (p 0) (p 1) ⟨2, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 2 (by show (2 : Nat) < 9; decide) S2x8x1x512x512 (val_main_v44 (F := Ideal) x0) rfl rfl 2 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v44_apply, val_main_v19_apply]
  refine congrArg (val_main_v0 (F := Ideal) x0) (funext fun a => Fin.ext ?_)
  match a with
  | ⟨0, _⟩ => rfl
  | ⟨1, _⟩ => rfl
  | ⟨2, _⟩ => show 3 + (p 2).val = (p 2).val + 3; omega
  | ⟨3, _⟩ => show 3 + (p 3).val = (p 3).val + 3; omega

/-- Plane 19 of the stack of shifted views is the bordered frame 3 rows down and 4 columns right. -/
theorem patch_19 (p : S2x8x512x512.Idx) :
    val_main_v53 (F := Ideal) x0 (tapIdx p ⟨19, by decide⟩) = val_main_v0 (F := Ideal) x0 (shiftIdx p ⟨19, by decide⟩) := by
  unfold val_main_v53
  rw [concatenate_pair_apply_right (2 : Fin 5) (val_main_v51 (F := Ideal) x0) (val_main_v52 (F := Ideal) x0) _ (tapIdx p ⟨19, by decide⟩) rfl rfl
      (ix5 (n0 := 2) (n1 := 8) (n2 := 9) (n3 := 512) (n4 := 512) (p 0) (p 1) ⟨3, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 3 (by show (3 : Nat) < 9; decide) S2x8x1x512x512 (val_main_v45 (F := Ideal) x0) rfl rfl 3 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v45_apply, val_main_v20_apply]
  refine congrArg (val_main_v0 (F := Ideal) x0) (funext fun a => Fin.ext ?_)
  match a with
  | ⟨0, _⟩ => rfl
  | ⟨1, _⟩ => rfl
  | ⟨2, _⟩ => show 3 + (p 2).val = (p 2).val + 3; omega
  | ⟨3, _⟩ => show 4 + (p 3).val = (p 3).val + 4; omega

/-- Plane 20 of the stack of shifted views is the bordered frame 4 rows down and 0 columns right. -/
theorem patch_20 (p : S2x8x512x512.Idx) :
    val_main_v53 (F := Ideal) x0 (tapIdx p ⟨20, by decide⟩) = val_main_v0 (F := Ideal) x0 (shiftIdx p ⟨20, by decide⟩) := by
  unfold val_main_v53
  rw [concatenate_pair_apply_right (2 : Fin 5) (val_main_v51 (F := Ideal) x0) (val_main_v52 (F := Ideal) x0) _ (tapIdx p ⟨20, by decide⟩) rfl rfl
      (ix5 (n0 := 2) (n1 := 8) (n2 := 9) (n3 := 512) (n4 := 512) (p 0) (p 1) ⟨4, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 4 (by show (4 : Nat) < 9; decide) S2x8x1x512x512 (val_main_v46 (F := Ideal) x0) rfl rfl 4 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v46_apply, val_main_v21_apply]
  refine congrArg (val_main_v0 (F := Ideal) x0) (funext fun a => Fin.ext ?_)
  match a with
  | ⟨0, _⟩ => rfl
  | ⟨1, _⟩ => rfl
  | ⟨2, _⟩ => show 4 + (p 2).val = (p 2).val + 4; omega
  | ⟨3, _⟩ => show (p 3).val = (p 3).val + 0; omega

/-- Plane 21 of the stack of shifted views is the bordered frame 4 rows down and 1 column right. -/
theorem patch_21 (p : S2x8x512x512.Idx) :
    val_main_v53 (F := Ideal) x0 (tapIdx p ⟨21, by decide⟩) = val_main_v0 (F := Ideal) x0 (shiftIdx p ⟨21, by decide⟩) := by
  unfold val_main_v53
  rw [concatenate_pair_apply_right (2 : Fin 5) (val_main_v51 (F := Ideal) x0) (val_main_v52 (F := Ideal) x0) _ (tapIdx p ⟨21, by decide⟩) rfl rfl
      (ix5 (n0 := 2) (n1 := 8) (n2 := 9) (n3 := 512) (n4 := 512) (p 0) (p 1) ⟨5, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 5 (by show (5 : Nat) < 9; decide) S2x8x1x512x512 (val_main_v47 (F := Ideal) x0) rfl rfl 5 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v47_apply, val_main_v22_apply]
  refine congrArg (val_main_v0 (F := Ideal) x0) (funext fun a => Fin.ext ?_)
  match a with
  | ⟨0, _⟩ => rfl
  | ⟨1, _⟩ => rfl
  | ⟨2, _⟩ => show 4 + (p 2).val = (p 2).val + 4; omega
  | ⟨3, _⟩ => show 1 + (p 3).val = (p 3).val + 1; omega

/-- Plane 22 of the stack of shifted views is the bordered frame 4 rows down and 2 columns right. -/
theorem patch_22 (p : S2x8x512x512.Idx) :
    val_main_v53 (F := Ideal) x0 (tapIdx p ⟨22, by decide⟩) = val_main_v0 (F := Ideal) x0 (shiftIdx p ⟨22, by decide⟩) := by
  unfold val_main_v53
  rw [concatenate_pair_apply_right (2 : Fin 5) (val_main_v51 (F := Ideal) x0) (val_main_v52 (F := Ideal) x0) _ (tapIdx p ⟨22, by decide⟩) rfl rfl
      (ix5 (n0 := 2) (n1 := 8) (n2 := 9) (n3 := 512) (n4 := 512) (p 0) (p 1) ⟨6, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 6 (by show (6 : Nat) < 9; decide) S2x8x1x512x512 (val_main_v48 (F := Ideal) x0) rfl rfl 6 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v48_apply, val_main_v23_apply]
  refine congrArg (val_main_v0 (F := Ideal) x0) (funext fun a => Fin.ext ?_)
  match a with
  | ⟨0, _⟩ => rfl
  | ⟨1, _⟩ => rfl
  | ⟨2, _⟩ => show 4 + (p 2).val = (p 2).val + 4; omega
  | ⟨3, _⟩ => show 2 + (p 3).val = (p 3).val + 2; omega

/-- Plane 23 of the stack of shifted views is the bordered frame 4 rows down and 3 columns right. -/
theorem patch_23 (p : S2x8x512x512.Idx) :
    val_main_v53 (F := Ideal) x0 (tapIdx p ⟨23, by decide⟩) = val_main_v0 (F := Ideal) x0 (shiftIdx p ⟨23, by decide⟩) := by
  unfold val_main_v53
  rw [concatenate_pair_apply_right (2 : Fin 5) (val_main_v51 (F := Ideal) x0) (val_main_v52 (F := Ideal) x0) _ (tapIdx p ⟨23, by decide⟩) rfl rfl
      (ix5 (n0 := 2) (n1 := 8) (n2 := 9) (n3 := 512) (n4 := 512) (p 0) (p 1) ⟨7, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 7 (by show (7 : Nat) < 9; decide) S2x8x1x512x512 (val_main_v49 (F := Ideal) x0) rfl rfl 7 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v49_apply, val_main_v24_apply]
  refine congrArg (val_main_v0 (F := Ideal) x0) (funext fun a => Fin.ext ?_)
  match a with
  | ⟨0, _⟩ => rfl
  | ⟨1, _⟩ => rfl
  | ⟨2, _⟩ => show 4 + (p 2).val = (p 2).val + 4; omega
  | ⟨3, _⟩ => show 3 + (p 3).val = (p 3).val + 3; omega

/-- Plane 24 of the stack of shifted views is the bordered frame 4 rows down and 4 columns right. -/
theorem patch_24 (p : S2x8x512x512.Idx) :
    val_main_v53 (F := Ideal) x0 (tapIdx p ⟨24, by decide⟩) = val_main_v0 (F := Ideal) x0 (shiftIdx p ⟨24, by decide⟩) := by
  unfold val_main_v53
  rw [concatenate_pair_apply_right (2 : Fin 5) (val_main_v51 (F := Ideal) x0) (val_main_v52 (F := Ideal) x0) _ (tapIdx p ⟨24, by decide⟩) rfl rfl
      (ix5 (n0 := 2) (n1 := 8) (n2 := 9) (n3 := 512) (n4 := 512) (p 0) (p 1) ⟨8, by decide⟩ (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  unfold val_main_v52
  rw [concatenate_apply_piece (t := S2x8x9x512x512) (2 : Fin 5) _ _ _ 8 (by show (8 : Nat) < 9; decide) S2x8x1x512x512 (val_main_v50 (F := Ideal) x0) rfl rfl 8 rfl
      (ix5 (n0 := 2) (n1 := 8) (n2 := 1) (n3 := 512) (n4 := 512) (p 0) (p 1) 0 (p 2) (p 3))
      (fun b hb => match b, hb with | ⟨0, _⟩, _ => rfl | ⟨1, _⟩, _ => rfl | ⟨2, _⟩, hb => absurd rfl hb | ⟨3, _⟩, _ => rfl | ⟨4, _⟩, _ => rfl)
      rfl]
  rw [val_main_v50_apply, val_main_v25_apply]
  refine congrArg (val_main_v0 (F := Ideal) x0) (funext fun a => Fin.ext ?_)
  match a with
  | ⟨0, _⟩ => rfl
  | ⟨1, _⟩ => rfl
  | ⟨2, _⟩ => show 4 + (p 2).val = (p 2).val + 4; omega
  | ⟨3, _⟩ => show 4 + (p 3).val = (p 3).val + 4; omega

/-- Every plane of the stack of shifted views, at a pixel, is the bordered frame at the shifted pixel. -/
theorem patch (p : S2x8x512x512.Idx) (k : Fin 25) :
    val_main_v53 (F := Ideal) x0 (tapIdx p k) = val_main_v0 (F := Ideal) x0 (shiftIdx p k) :=
  match k with
  | ⟨0, _⟩ => patch_0 x0 p
  | ⟨1, _⟩ => patch_1 x0 p
  | ⟨2, _⟩ => patch_2 x0 p
  | ⟨3, _⟩ => patch_3 x0 p
  | ⟨4, _⟩ => patch_4 x0 p
  | ⟨5, _⟩ => patch_5 x0 p
  | ⟨6, _⟩ => patch_6 x0 p
  | ⟨7, _⟩ => patch_7 x0 p
  | ⟨8, _⟩ => patch_8 x0 p
  | ⟨9, _⟩ => patch_9 x0 p
  | ⟨10, _⟩ => patch_10 x0 p
  | ⟨11, _⟩ => patch_11 x0 p
  | ⟨12, _⟩ => patch_12 x0 p
  | ⟨13, _⟩ => patch_13 x0 p
  | ⟨14, _⟩ => patch_14 x0 p
  | ⟨15, _⟩ => patch_15 x0 p
  | ⟨16, _⟩ => patch_16 x0 p
  | ⟨17, _⟩ => patch_17 x0 p
  | ⟨18, _⟩ => patch_18 x0 p
  | ⟨19, _⟩ => patch_19 x0 p
  | ⟨20, _⟩ => patch_20 x0 p
  | ⟨21, _⟩ => patch_21 x0 p
  | ⟨22, _⟩ => patch_22 x0 p
  | ⟨23, _⟩ => patch_23 x0 p
  | ⟨24, _⟩ => patch_24 x0 p
  | ⟨_ + 25, h⟩ => absurd h (Nat.not_lt.2 (Nat.le_add_left _ _))

/-- The host program's result is the weighted sum of the 25 taps, over the regrouped weight planes and the
    bordered frame it computes on the way. -/
theorem result_eq (x1 : (⟨S2x200x512x512, .f32⟩ : BufTy).Contents (Elt Ideal)) (x2 : (⟨S2x8x512x512, .f32⟩ : BufTy).Contents (Elt Ideal)) :
    val_main_v57 (F := Ideal) x0 x1 x2 = tapSum (val_main_v54 (F := Ideal) x1) (val_main_v0 (F := Ideal) x0) x2 := by
  funext p
  have hidx : ∀ k : Fin 25, idx_main_v56 p k = tapIdx p k := fun k => funext fun a => by
    match a with | ⟨0, _⟩ => rfl | ⟨1, _⟩ => rfl | ⟨2, _⟩ => rfl | ⟨3, _⟩ => rfl | ⟨4, _⟩ => rfl
  rw [val_main_v57_apply, val_main_v56_apply, val_main_cst_apply]
  simp only [val_main_v55_apply, hidx, patch, Ideal.mulf_def, Ideal.ofBits_def, Ideal.ofBits_zero_f32, zero_add]
  rfl

end Cert.ReferenceIdeal.Taps

end
-- ==== Proof.BodyLayout.lean ====
/-
  The re-layouts inside the kernel body, read at coordinates.

  The body works on blocks whose leading axes have extent one: a staged `[1, 1, 516, 516]` frame, a
  `[1, 1, 25, 256, 512]` stack of weight planes, `[1, 1, 256, 512]` blocks of pixel weights and of the
  result.  It drops those axes before the arithmetic and puts them back before the store, and it takes the
  five column windows `[256, 512]` of a `[256, 516]` band of rows.  Each of these only renames an entry:
  the lemmas below say which entry, at explicit row `r` and column `q`.
-/
import Idealize.ShloMosaic.Lib.Pipeline.Value
import Idealize.ShloMosaic.Lib.ValueIdx
import Idealize.ShloMosaic.Lib.ValueLayout

noncomputable section

namespace Cert.BodyLayout

open Idealize.ShloMosaic Idealize.ShloMosaic.ValueIdx

variable {α : Type}

/-- A band of 256 rows of the bordered frame, without its two leading unit axes: entry `(r, q)` is entry `(0, 0, r, q)`. -/
theorem rows_cast (v : (⟨4, ![1, 1, 256, 516]⟩ : Shape).Idx → α)
    (h : (⟨4, ![1, 1, 256, 516]⟩ : Shape).ShapeCasts ⟨2, ![256, 516]⟩) (r : Fin 256) (q : Fin 516) :
    shapeCast ⟨2, ![256, 516]⟩ v h (ix2 r q) = v (ix4 (0 : Fin 1) (0 : Fin 1) r q) :=
  shapeCast_apply v h (ix2 r q) (ix4 (0 : Fin 1) (0 : Fin 1) r q) (by
    rewrite [Shape.rowMajor_val_four, Shape.rowMajor_val_two]
    show (((0 * 1 + 0) * 256 + r.val) * 516 + q.val) = r.val * 516 + q.val
    omega)

/-- One weight plane without its three leading unit axes: entry `(r, q)` is entry `(0, 0, 0, r, q)`. -/
theorem tap_cast (v : (⟨5, ![1, 1, 1, 256, 512]⟩ : Shape).Idx → α)
    (h : (⟨5, ![1, 1, 1, 256, 512]⟩ : Shape).ShapeCasts ⟨2, ![256, 512]⟩) (r : Fin 256) (q : Fin 512) :
    shapeCast ⟨2, ![256, 512]⟩ v h (ix2 r q) = v (ix5 (0 : Fin 1) (0 : Fin 1) (0 : Fin 1) r q) :=
  shapeCast_apply v h (ix2 r q) (ix5 (0 : Fin 1) (0 : Fin 1) (0 : Fin 1) r q) (by
    rewrite [Shape.rowMajor_val_five, Shape.rowMajor_val_two]
    show ((((0 * 1 + 0) * 1 + 0) * 256 + r.val) * 512 + q.val) = r.val * 512 + q.val
    omega)

/-- A `[1, 1, 256, 512]` block without its two leading unit axes: entry `(r, q)` is entry `(0, 0, r, q)`. -/
theorem blk_cast (v : (⟨4, ![1, 1, 256, 512]⟩ : Shape).Idx → α)
    (h : (⟨4, ![1, 1, 256, 512]⟩ : Shape).ShapeCasts ⟨2, ![256, 512]⟩) (r : Fin 256) (q : Fin 512) :
    shapeCast ⟨2, ![256, 512]⟩ v h (ix2 r q) = v (ix4 (0 : Fin 1) (0 : Fin 1) r q) :=
  shapeCast_apply v h (ix2 r q) (ix4 (0 : Fin 1) (0 : Fin 1) r q) (by
    rewrite [Shape.rowMajor_val_four, Shape.rowMajor_val_two]
    show (((0 * 1 + 0) * 256 + r.val) * 512 + q.val) = r.val * 512 + q.val
    omega)

/-- The two leading unit axes put back: entry `(0, 0, r, q)` is entry `(r, q)`. -/
theorem out_cast (v : (⟨2, ![256, 512]⟩ : Shape).Idx → α)
    (h : (⟨2, ![256, 512]⟩ : Shape).ShapeCasts ⟨4, ![1, 1, 256, 512]⟩) (r : Fin 256) (q : Fin 512) :
    shapeCast ⟨4, ![1, 1, 256, 512]⟩ v h (ix4 (0 : Fin 1) (0 : Fin 1) r q) = v (ix2 r q) :=
  shapeCast_apply v h (ix4 (0 : Fin 1) (0 : Fin 1) r q) (ix2 r q) (by
    rewrite [Shape.rowMajor_val_four, Shape.rowMajor_val_two]
    show r.val * 512 + q.val = (((0 * 1 + 0) * 256 + r.val) * 512 + q.val)
    omega)

/-- The window of 512 columns starting at column `o` of a band of 516 columns: entry `(r, q)` is entry `(r, q + o)`. -/
theorem col_window (o : Nat) (v : (⟨2, ![256, 516]⟩ : Shape).Idx → α)
    (h : (⟨2, ![256, 516]⟩ : Shape).Slices ![0, o] ⟨2, ![256, 512]⟩) (r : Fin 256) (q : Fin 512) :
    extractStridedSlice ⟨2, ![256, 512]⟩ ![0, o] v h (ix2 r q)
      = v (ix2 r ⟨q.val + o, by have h1 : o + 512 ≤ 516 := h.2 1; have := q.isLt; omega⟩) :=
  slice2_axis1_apply o v h r q _ (Nat.add_comm _ _)

end Cert.BodyLayout

end
-- ==== Proof.Body.lean ====
/-
  What the kernel body leaves in the result block, as a value.

  At a grid point `(b, n, h)` the body sees the 25 weight planes of a tile of 256 rows, the whole bordered
  frame of `(b, n)`, and the tile's pixel weights.  For `c = 0 … 4` it takes the band of 256 rows of the
  bordered frame that starts `c` rows below the tile's first row (row `256 h + c`), and from each band the
  five windows of 512 columns starting at columns `0 … 4`; it multiplies window `(c, j)` by weight plane
  `5 c + j`, adds the 25 products one after the other onto zero, multiplies by the pixel weights and stores
  the block.  So entry `(r, q)` of the stored block is the pixel weight times the sum over `k` of weight
  plane `k` at `(r, q)` times the bordered frame at `(256 h + k / 5 + r, q + k % 5)`.
-/
import proofs.«126246_j11261404250772_1_alg».proof.Proof.Gen.KernelIdeal.Value
import proofs.«126246_j11261404250772_1_alg».proof.Proof.TapSum
import proofs.«126246_j11261404250772_1_alg».proof.Proof.BodyLayout
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Body

open Cert.KernelIdeal Cert.KernelIdeal.Gen Cert.TapSum Cert.BodyLayout
open Idealize.ShloMosaic Idealize.ShloMosaic.TcCoe Idealize.ShloMosaic.ValueIdx Idealize.SL.Sem

variable {F : FTy → Type} [FloatOps F]

theorem hz4 : (![0, 0, 0, 0] : Fin 4 → Nat) = fun _ => 0 := funext fun a => by fin_cases a <;> rfl

/-- Weight plane `k` of the staged stack, as the body loads it. -/
def tapLd (x0 : Vec F S1x1x25x256x512 .f32) (k : Nat)
    (hk : ∀ a, (![0, 0, k, 0, 0] : Fin 5 → Nat) a + S1x1x1x256x512.size a ≤ S1x1x25x256x512.size a) :
    Vec F S1x1x1x256x512 .f32 :=
  View.ld x0 (Rect.unit (s := S1x1x25x256x512) ![0, 0, k, 0, 0] S1x1x1x256x512.size hk)

/-- The band of 256 rows of the staged bordered frame starting `c` rows below the tile's first row, as the body loads it. -/
def rowsLd (i : grid0.Coords) (x1 : Vec F S1x1x516x516 .f32) (c : Fin 5) : Vec F S1x1x256x516 .f32 :=
  View.ld x1 (Rect.unit (s := S1x1x516x516) (k0_off1 i (BitVec.ofNat 32 c.val)) S1x1x256x516.size (Gen.k0_off1_inb i c))

/-- The block the body stores, as a term of the three staged blocks: its arithmetic over its loads. -/
def bodyTerm (i : grid0.Coords) (x0 : Vec F S1x1x25x256x512 .f32) (x1 : Vec F S1x1x516x516 .f32)
    (x2 : Vec F S1x1x256x512 .f32) : Vec F S1x1x256x512 .f32 :=
  k0_pay1
    (k0_pay11
      (k0_pay10
        (k0_pay8 (k0_pay4 (rowsLd i x1 1))
          (k0_pay5 (k0_pay2 (rowsLd i x1 0)) (k0_pay3 (rowsLd i x1 0) (tapLd x0 0 (by decide)) (tapLd x0 1 (by decide)) (tapLd x0 2 (by decide)) (tapLd x0 3 (by decide)))
            (tapLd x0 4 (by decide)) (rowsLd i x1 1) (tapLd x0 5 (by decide)) (tapLd x0 6 (by decide)) (tapLd x0 7 (by decide)) (tapLd x0 8 (by decide)))
          (k0_pay6 (tapLd x0 9 (by decide))) (rowsLd i x1 2) (tapLd x0 10 (by decide)) (tapLd x0 11 (by decide)) (tapLd x0 12 (by decide)) (tapLd x0 13 (by decide)))
        (k0_pay9 (rowsLd i x1 2) (tapLd x0 14 (by decide)))
        (rowsLd i x1 3) (tapLd x0 15 (by decide)) (tapLd x0 16 (by decide)) (tapLd x0 17 (by decide)) (tapLd x0 18 (by decide)) (tapLd x0 19 (by decide)))
      (rowsLd i x1 4) (tapLd x0 20 (by decide)) (tapLd x0 21 (by decide)) (tapLd x0 22 (by decide)) (tapLd x0 23 (by decide)) (tapLd x0 24 (by decide)))
    x2

/-- The result block after the body is that term: the body's one store covers the block, and its loads read the
    staged blocks. -/
theorem out_A (c : Dev nD) (i : grid0.Coords) (arg3 : Memref sig .tc .vmem S1x1x25x256x512 .f32) (harg3 : arg3.IsWhole) (arg4 : Memref sig .tc .vmem S1x1x516x516 .f32) (harg4 : arg4.IsWhole) (arg5 : Memref sig .tc .vmem S1x1x256x512 .f32) (harg5 : arg5.IsWhole) (arg6 : Memref sig .tc .vmem S1x1x256x512 .f32) (harg6 : arg6.IsWhole)
    (x0 : Vec F S1x1x25x256x512 .f32) (x1 : Vec F S1x1x516x516 .f32) (x2 : Vec F S1x1x256x512 .f32) :
    out0_A_3 c i arg3 harg3 arg4 harg4 arg5 harg5 arg6 harg6 x0 x1 x2 = bodyTerm i x0 x1 x2 := by
  unfold out0_A_3
  rw [View.read_writes_eq_canon _ _ _ (cover0_A_3 c i arg3 harg3 arg4 harg4 arg5 harg5 arg6 harg6 x0 x1 x2)]
  unfold kernelRun0_A
  dsimp only
  sl_unfold_words
  rw [View.canon_unit_zero hz4]
  simp only [View.readAt_eq_ld, harg3.read_unread, harg4.read_unread, harg5.read_unread, View.ld_unit_zero (S := S1x1x256x512) hz4]
  rfl

/-- Weight plane `k` as loaded, at `(r, q)`: the staged stack at plane `k`. -/
theorem tapLd_apply (x0 : Vec F S1x1x25x256x512 .f32) (k : Nat)
    (hk : ∀ a, (![0, 0, k, 0, 0] : Fin 5 → Nat) a + S1x1x1x256x512.size a ≤ S1x1x25x256x512.size a)
    (r : Fin 256) (q : Fin 512) :
    tapLd x0 k hk (ix5 (0 : Fin 1) (0 : Fin 1) (0 : Fin 1) r q)
      = x0 (ix5 (0 : Fin 1) (0 : Fin 1) (⟨k, hk 2⟩ : Fin 25) r q) := by
  unfold tapLd
  refine congrArg x0 (funext fun a => Fin.ext ?_)
  match a with
  | ⟨0, _⟩ => rfl
  | ⟨1, _⟩ => rfl
  | ⟨2, _⟩ => show k + 1 * 0 = k; omega
  | ⟨3, _⟩ => show 0 + 1 * r.val = r.val; omega
  | ⟨4, _⟩ => show 0 + 1 * q.val = q.val; omega

/-- The band starting `c` rows below the tile's first row, at `(r, q)`: the staged bordered frame at row `256 h + c + r`. -/
theorem rowsLd_apply (i : grid0.Coords) (x1 : Vec F S1x1x516x516 .f32) (c : Fin 5) (r : Fin 256) (q : Fin 516) :
    rowsLd i x1 c (ix4 (0 : Fin 1) (0 : Fin 1) r q)
      = x1 (ix4 (0 : Fin 1) (0 : Fin 1)
          (⟨256 * (i 2).val + c.val + r.val, by have hi : (i 2).val < 2 := (i 2).isLt; have := c.isLt; have := r.isLt; omega⟩ : Fin 516) q) := by
  unfold rowsLd
  refine congrArg x1 (funext fun a => Fin.ext ?_)
  show (k0_off1 i (BitVec.ofNat 32 c.val)) a + 1 * ((ix4 (0 : Fin 1) (0 : Fin 1) r q) a).val = _
  rw [k0_off1_eq i c]
  match a with
  | ⟨0, _⟩ => rfl
  | ⟨1, _⟩ => rfl
  | ⟨2, _⟩ => show 256 * (i 2).val + c.val + 1 * r.val = 256 * (i 2).val + c.val + r.val; omega
  | ⟨3, _⟩ => show 0 + 1 * q.val = q.val; omega

/-- Where tap `k` of entry `(r, q)` of the tile at row-tile `h = i 2` reads the staged bordered frame. -/
def bandIdx (i : grid0.Coords) (k : Fin 25) (r : Fin 256) (q : Fin 512) : S1x1x516x516.Idx :=
  ix4 (0 : Fin 1) (0 : Fin 1)
    (⟨256 * (i 2).val + k.val / 5 + r.val, by have hi : (i 2).val < 2 := (i 2).isLt; have := k.isLt; have := r.isLt; omega⟩ : Fin 516)
    (⟨q.val + k.val % 5, by have := k.isLt; have := q.isLt; omega⟩ : Fin 516)

theorem scalar_zero : Scalar.ofBits (F := Ideal) .f32 0x00000000#32 = (0 : EReal) := Ideal.ofBits_zero_f32

/-- Entry `(r, q)` of the stored block, on the extended reals: the pixel weight times the sum of the 25 products. -/
theorem body_apply (i : grid0.Coords) (x0 : Vec Ideal S1x1x25x256x512 .f32) (x1 : Vec Ideal S1x1x516x516 .f32)
    (x2 : Vec Ideal S1x1x256x512 .f32) (r : Fin 256) (q : Fin 512) :
    bodyTerm (F := Ideal) i x0 x1 x2 (ix4 (0 : Fin 1) (0 : Fin 1) r q)
      = x2 (ix4 (0 : Fin 1) (0 : Fin 1) r q)
          * ∑ k : Fin 25, x0 (ix5 (0 : Fin 1) (0 : Fin 1) k r q) * x1 (bandIdx i k r q) := by
  rw [← chain_eq_sum]
  unfold bodyTerm k0_pay1 k0_pay11 k0_pay10 k0_pay9 k0_pay8 k0_pay7 k0_pay6 k0_pay5 k0_pay4 k0_pay3 k0_pay2
  simp only [out_cast, blk_cast, tap_cast, rows_cast, col_window, mulf_apply, addf_apply, broadcast_apply,
    tapLd_apply, rowsLd_apply, scalar_zero]
  rfl

end Cert.KernelIdeal.Body

end
-- ==== Proof.Tiles.lean ====
/-
  From the tiles to the whole result array.

  The grid has a point for every image `b`, channel `n` and row-tile `h` (two tiles of 256 rows).  At that
  point the weight window is the 25 planes of `(b, n)` restricted to the tile's rows, the frame window is
  the whole bordered frame of `(b, n)`, and the pixel-weight and result windows are the tile of `(b, n)`.
  So what the point writes back is the weighted sum of `TapSum` of the three arrays the region finds,
  restricted to the tile; the 32 tiles cover the result array, which therefore ends holding that function
  everywhere.
-/
import proofs.«126246_j11261404250772_1_alg».proof.Proof.Gen.KernelIdeal.Value
import proofs.«126246_j11261404250772_1_alg».proof.Proof.TapSum
import proofs.«126246_j11261404250772_1_alg».proof.Proof.Body
import Idealize.ShloMosaic.Lib.Pipeline.Value
import Idealize.ShloMosaic.Lib.ValueIdx
import Idealize.ShloMosaic.PureOps.Ideal.Laws

set_option maxRecDepth 16384

noncomputable section

namespace Cert.KernelIdeal.Tiles

open Cert.KernelIdeal Cert.KernelIdeal.Gen Cert.KernelIdeal.Body Cert.TapSum
open Idealize.ShloMosaic Idealize.ShloMosaic.TcCoe Idealize.ShloMosaic.ValueIdx Idealize.SL.Sem
open Idealize.ShloMosaic.Pipeline (Dat)

/-- The stored block of a tile is the weighted sum restricted to the tile, whenever the three staged blocks are
    the restrictions of arrays `C`, `P`, `W` to the tile of image `b`, channel `n` and row-tile `i 2`. -/
theorem tile_eq (i : grid0.Coords) (x0 : Vec Ideal S1x1x25x256x512 .f32) (x1 : Vec Ideal S1x1x516x516 .f32)
    (x2 : Vec Ideal S1x1x256x512 .f32) (C : STaps.Idx → EReal) (P : SPad.Idx → EReal) (W : SOut.Idx → EReal)
    (b : Fin 2) (n : Fin 8) (R : Fin 256 → Fin 512) (hR : ∀ r : Fin 256, (R r).val = 256 * (i 2).val + r.val)
    (h0 : ∀ (k : Fin 25) (r : Fin 256) (q : Fin 512),
      x0 (ix5 (0 : Fin 1) (0 : Fin 1) k r q) = C (ix5 (n0 := 2) (n1 := 8) (n2 := 25) (n3 := 512) (n4 := 512) b n k (R r) q))
    (h1 : ∀ (r' q' : Fin 516), x1 (ix4 (0 : Fin 1) (0 : Fin 1) r' q') = P (ix4 (n0 := 2) (n1 := 8) (n2 := 516) (n3 := 516) b n r' q'))
    (h2 : ∀ (r : Fin 256) (q : Fin 512),
      x2 (ix4 (0 : Fin 1) (0 : Fin 1) r q) = W (ix4 (n0 := 2) (n1 := 8) (n2 := 512) (n3 := 512) b n (R r) q))
    (r : Fin 256) (q : Fin 512) :
    bodyTerm (F := Ideal) i x0 x1 x2 (ix4 (0 : Fin 1) (0 : Fin 1) r q)
      = tapSum C P W (ix4 (n0 := 2) (n1 := 8) (n2 := 512) (n3 := 512) b n (R r) q) := by
  rw [body_apply, h2]
  unfold tapSum
  refine congrArg (_ * ·) (Finset.sum_congr rfl fun k _ => ?_)
  rw [h0]
  unfold bandIdx
  rw [h1]
  refine congrArg (C _ * ·) (congrArg P (funext fun a => Fin.ext ?_))
  match a with
  | ⟨0, _⟩ => rfl
  | ⟨1, _⟩ => rfl
  | ⟨2, _⟩ => show 256 * (i 2).val + k.val / 5 + r.val = (R r).val + k.val / 5; rw [hR r]; omega
  | ⟨3, _⟩ => rfl

variable (m : (ℓ : Loc nD τ sig) → Buf (Elt Ideal) ℓ) (ρ : Dev nD → PrngReg)

/-- The printed index maps over the grid: the weight window follows `(b, n, ·, h, ·)`, the frame window
    `(b, n, ·, ·)`, the pixel-weight and result windows `(b, n, h, ·)`, and `h` is the point's third coordinate. -/
theorem idx_facts : ∀ t : Fin cfg0.N,
    win0_0.index t (0 : Fin 5) = win0_3.index t (0 : Fin 4) ∧ win0_0.index t (1 : Fin 5) = win0_3.index t (1 : Fin 4)
    ∧ win0_0.index t (2 : Fin 5) = 0 ∧ win0_0.index t (3 : Fin 5) = win0_3.index t (2 : Fin 4) ∧ win0_0.index t (4 : Fin 5) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = win0_3.index t (2 : Fin 4) ∧ win0_2.index t (3 : Fin 4) = 0
    ∧ win0_3.index t (3 : Fin 4) = 0 ∧ win0_3.index t (2 : Fin 4) = (grid0.coords t 2).val
    ∧ win0_3.index t (0 : Fin 4) < 2 ∧ win0_3.index t (1 : Fin 4) < 8 ∧ win0_3.index t (2 : Fin 4) < 2 :=
  (by decide +kernel : ∀ t : Fin grid0.N, _)

/-- Every tile `(b, n, h)` is some point's. -/
theorem idx_onto : ∀ (b : Fin 2) (n : Fin 8) (h : Fin 2), ∃ t : Fin cfg0.N, win0_3.index t = ![b.val, n.val, h.val, 0] :=
  (by decide +kernel : ∀ (b : Fin 2) (n : Fin 8) (h : Fin 2), ∃ t : Fin grid0.N, win0_3.index t = ![b.val, n.val, h.val, 0])

/-- The arrays the region finds: the regrouped weight planes, the bordered frames, the pixel weights. -/
abbrev found (c : Dev nD) : SOut.Idx → EReal :=
  tapSum (V m c main_v1) (V m c main_v0) (V m c main_arg2)

/-- What point `t` writes back is its tile of the weighted sum of the arrays the region finds. -/
theorem flushed_eq (c : Dev nD) (t : Fin cfg0.N) :
    (dats m 0 c).flushed 3 t = ((cfg0.win 3).blk t).view.read (Elt Ideal) (found m c) := by
  rw [Value.flushed3_A]
  obtain ⟨a0, a1, a2, a3, a4, b0, b1, b2, b3, c0, c1, c2, c3, d3, d2, l0, l1, l2⟩ := idx_facts t
  refine funext fun (y : S1x1x256x512.Idx) => ?_
  obtain ⟨r, q, rfl⟩ : ∃ (r : Fin 256) (q : Fin 512), y = ix4 (0 : Fin 1) (0 : Fin 1) r q :=
    ⟨y 2, y 3, funext fun a => by
      match a with
      | ⟨0, h0⟩ => exact Fin.ext (Nat.lt_one_iff.mp (y ⟨0, h0⟩).isLt)
      | ⟨1, h1⟩ => exact Fin.ext (Nat.lt_one_iff.mp (y ⟨1, h1⟩).isLt)
      | ⟨2, _⟩ => rfl
      | ⟨3, _⟩ => rfl⟩
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) (ix4 (0 : Fin 1) (0 : Fin 1) r q)
    = found m c (((cfg0.win 3).blk t).view.emb (ix4 (0 : Fin 1) (0 : Fin 1) r q))
  refine (congrFun (out_A c (grid0.coords t) (ms0_0 t) (hs0_0 t) (ms0_1 t) (hs0_1 t) (ms0_2 t) (hs0_2 t) (ms0_3 t) (hs0_3 t)
      (iblk m c 0 t) (iblk m c 1 t) (iblk m c 2 t)) _).trans ?_
  have hrow : ∀ r : Fin 256, 256 * (grid0.coords t 2).val + r.val < 512 := fun r => by
    have := r.isLt; omega
  refine (tile_eq (grid0.coords t) (iblk m c 0 t) (iblk m c 1 t) (iblk m c 2 t)
      (V m c main_v1) (V m c main_v0) (V m c main_arg2)
      ⟨win0_3.index t (0 : Fin 4), l0⟩ ⟨win0_3.index t (1 : Fin 4), l1⟩
      (fun r => ⟨256 * (grid0.coords t 2).val + r.val, hrow r⟩) (fun _ => rfl) ?_ ?_ ?_ r q).trans ?_
  · intro k r q
    show V m c main_v1 (((cfg0.win 0).blk t).view.emb (ix5 (0 : Fin 1) (0 : Fin 1) k r q)) = V m c main_v1 _
    refine congrArg (V m c main_v1) (funext fun a => Fin.ext ?_)
    match a with
    | ⟨0, _⟩ => show win0_0.index t (0 : Fin 5) * 1 + 1 * 0 = win0_3.index t (0 : Fin 4); omega
    | ⟨1, _⟩ => show win0_0.index t (1 : Fin 5) * 1 + 1 * 0 = win0_3.index t (1 : Fin 4); omega
    | ⟨2, _⟩ => show win0_0.index t (2 : Fin 5) * 25 + 1 * k.val = k.val; omega
    | ⟨3, _⟩ => show win0_0.index t (3 : Fin 5) * 256 + 1 * r.val = 256 * (grid0.coords t 2).val + r.val; omega
    | ⟨4, _⟩ => show win0_0.index t (4 : Fin 5) * 512 + 1 * q.val = q.val; omega
  · intro r' q'
    show V m c main_v0 (((cfg0.win 1).blk t).view.emb (ix4 (0 : Fin 1) (0 : Fin 1) r' q')) = V m c main_v0 _
    refine congrArg (V m c main_v0) (funext fun a => Fin.ext ?_)
    match a with
    | ⟨0, _⟩ => show win0_1.index t (0 : Fin 4) * 1 + 1 * 0 = win0_3.index t (0 : Fin 4); omega
    | ⟨1, _⟩ => show win0_1.index t (1 : Fin 4) * 1 + 1 * 0 = win0_3.index t (1 : Fin 4); omega
    | ⟨2, _⟩ => show win0_1.index t (2 : Fin 4) * 516 + 1 * r'.val = r'.val; omega
    | ⟨3, _⟩ => show win0_1.index t (3 : Fin 4) * 516 + 1 * q'.val = q'.val; omega
  · intro r q
    show V m c main_arg2 (((cfg0.win 2).blk t).view.emb (ix4 (0 : Fin 1) (0 : Fin 1) r q)) = V m c main_arg2 _
    refine congrArg (V m c main_arg2) (funext fun a => Fin.ext ?_)
    match a with
    | ⟨0, _⟩ => show win0_2.index t (0 : Fin 4) * 1 + 1 * 0 = win0_3.index t (0 : Fin 4); omega
    | ⟨1, _⟩ => show win0_2.index t (1 : Fin 4) * 1 + 1 * 0 = win0_3.index t (1 : Fin 4); omega
    | ⟨2, _⟩ => show win0_2.index t (2 : Fin 4) * 256 + 1 * r.val = 256 * (grid0.coords t 2).val + r.val; omega
    | ⟨3, _⟩ => show win0_2.index t (3 : Fin 4) * 512 + 1 * q.val = q.val; omega
  · refine congrArg (found m c) (funext fun a => Fin.ext ?_)
    match a with
    | ⟨0, _⟩ => show win0_3.index t (0 : Fin 4) = win0_3.index t (0 : Fin 4) * 1 + 1 * 0; omega
    | ⟨1, _⟩ => show win0_3.index t (1 : Fin 4) = win0_3.index t (1 : Fin 4) * 1 + 1 * 0; omega
    | ⟨2, _⟩ => show 256 * (grid0.coords t 2).val + r.val = win0_3.index t (2 : Fin 4) * 256 + 1 * r.val; omega
    | ⟨3, _⟩ => show q.val = win0_3.index t (3 : Fin 4) * 512 + 1 * q.val; omega

/-- An index of the result array is in point `t`'s tile iff each coordinate is in the tile's range on its axis. -/
theorem mem_tile (t : Fin cfg0.N) (i : S2x8x512x512.Idx) :
    i ∈ ((cfg0.win 3).blk t).view.set ↔ ∀ a : Fin 4, win0_3.index t a * S1x1x256x512.size a ≤ (i a).val
      ∧ (i a).val < win0_3.index t a * S1x1x256x512.size a + S1x1x256x512.size a := by
  show i ∈ ((View.whole main_v2).slice (win0_3.rect t)).set ↔ _
  rw [View.set_slice_whole, Rect.mem_set_unit]
  exact Iff.rfl

/-- The 32 tiles cover the result array: pixel `(b, n, y, x)` is in the tile `(b, n, y / 256)`. -/
theorem cover (i : S2x8x512x512.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 512 := (i 2).isLt
  have hi3 : (i 3).val < 512 := (i 3).isLt
  obtain ⟨t, ht⟩ := idx_onto ⟨(i 0).val, hi0⟩ ⟨(i 1).val, hi1⟩ ⟨(i 2).val / 256, by omega⟩
  have q0 : win0_3.index t (0 : Fin 4) = (i 0).val := congrFun ht 0
  have q1 : win0_3.index t (1 : Fin 4) = (i 1).val := congrFun ht 1
  have q2 : win0_3.index t (2 : Fin 4) = (i 2).val / 256 := congrFun ht 2
  have q3 : win0_3.index t (3 : Fin 4) = 0 := congrFun ht 3
  refine ⟨t, flush0_3 t, ?_⟩
  rw [mem_tile]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 256 ≤ (i 2).val ∧ (i 2).val < win0_3.index t (2 : Fin 4) * 256 + 256; omega
  | ⟨3, _⟩ => show win0_3.index t (3 : Fin 4) * 512 ≤ (i 3).val ∧ (i 3).val < win0_3.index t (3 : Fin 4) * 512 + 512; omega

/-- The result array after the run is the weighted sum of the arrays the region finds. -/
theorem final (c : Dev nD) : (dats m 0 c).arrAt 3 cfg0.N = found m c :=
  (dats m 0 c).arrAt_eq_of_cover 3 (found m c) (fun t _ => flushed_eq m c t) cover

end Cert.KernelIdeal.Tiles

end
-- ==== Proof.KernelRun.lean ====
/-
  The kernel's run, read: the result array as one function of the three arguments.

  Before the grid the program borders the frames with two zeros on each side and regroups the 200 weight
  planes of an image as 8 channels of 25 planes; the pixel weights are staged as they are.  With the tiles
  assembled, the result array is the weighted sum of `TapSum` of the regrouped weights, the bordered
  frames and the pixel weights.
-/
import proofs.«126246_j11261404250772_1_alg».proof.Proof.Gen.KernelIdeal.Value
import proofs.«126246_j11261404250772_1_alg».proof.Proof.TapSum
import proofs.«126246_j11261404250772_1_alg».proof.Proof.Tiles
import Idealize.ShloMosaic.Lib.Pipeline.Value
import Idealize.ShloMosaic.Lib.StableHlo.Run
import Idealize.ShloMosaic.PureOps.Ideal.Laws

set_option maxRecDepth 16384

noncomputable section

namespace Cert.KernelIdeal.Whole

open Cert.KernelIdeal Cert.KernelIdeal.Gen Cert.KernelIdeal.Tiles Cert.TapSum
open Idealize.ShloMosaic Idealize.ShloMosaic.TcCoe Idealize.ShloMosaic.StableHlo Idealize.SL.Sem
open Idealize.ShloMosaic.Pipeline (Dat)

/-- The frames with a border of two zeros on each side of both spatial axes, as the program computes them. -/
abbrev border (x : S2x8x512x512.Idx → EReal) : S2x8x516x516.Idx → EReal :=
  pad S2x8x516x516 ![0, 0, 2, 2] ![0, 0, 2, 2] ![0, 0, 0, 0] x (sitofp (F := Ideal) .f32 (constantI S_ 32 0#32))
    pads_S2x8x512x512_S2x8x516x516_000_000_220_220 h_S_

/-- The 200 weight planes of an image regrouped as 8 channels of 25 planes, as the program computes them. -/
abbrev regroup (x : S2x200x512x512.Idx → EReal) : S2x8x25x512x512.Idx → EReal :=
  shapeCast S2x8x25x512x512 x shapeCasts_S2x200x512x512_S2x8x25x512x512

variable (m : (ℓ : Loc nD τ sig) → Buf (Elt Ideal) ℓ) (ρ : Dev nD → PrngReg)

/-- The frame window's array, as the region finds it, is the bordered frames. -/
theorem found_frames (c : Dev nD) : (V m c main_v0 : S2x8x516x516.Idx → EReal) = border (m ((c : Thread nD τ).loc main_arg0)) := by
  dsimp only [Gen.V]
  simp only [Gen.hostOps0, Gen.hostOps0_1, Gen.hostOps0_2, List.flatten_cons, List.flatten_nil, List.append_nil,
    List.cons_append, List.nil_append]
  after_results
  rfl

/-- The weight window's array, as the region finds it, is the regrouped weight planes. -/
theorem found_weights (c : Dev nD) : (V m c main_v1 : S2x8x25x512x512.Idx → EReal) = regroup (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results
  rfl

/-- The result of the kernel program, as a function of its three arguments. -/
abbrev result (c : Dev nD) : S2x8x512x512.Idx → EReal :=
  tapSum (regroup (m ((c : Thread nD τ).loc main_arg1))) (border (m ((c : Thread nD τ).loc main_arg0))) (m ((c : Thread nD τ).loc main_arg2))

/-- The result array after the run is that function. -/
theorem final_eq (c : Dev nD) : (dats m 0 c).arrAt 3 cfg0.N = result m c := by
  rw [final m c]
  show tapSum (V m c main_v1) (V m c main_v0) (V m c main_arg2) = _
  rw [found_weights, found_frames, V_main_arg2]

/-- Every run of the kernel program ends with the result array at the weighted sum and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

end Cert.KernelIdeal.Whole

end
-- ==== Proof.lean ====
/-
  The per-pixel five-by-five dynamic filter: the kernel against its array-level reference.

  Both programs compute, for every image `b`, channel `n` and pixel `(y, x)`,

      out (b, n, y, x) = W (b, n, y, x) · ∑_{k < 25} core (b, 25 n + k, y, x) · P (b, n, y + k / 5, x + k % 5)

  where `P` is the frame with a border of two zeros on each side of both spatial axes.  Both border the
  frames and regroup the 200 weight planes as 8 channels of 25 by the same two operations, so the claim is
  about what comes after.  The kernel walks a grid of tiles of 256 rows; in a tile it adds the 25 products one
  after the other onto zero and multiplies by the pixel weight.  The reference stacks the 25 shifted windows
  of the bordered frame, multiplies the stack by the regrouped weights, sums over the stacking axis onto
  zero and multiplies by the pixel weight.  On the extended reals addition is associative and commutative,
  so the two sums of the same 25 products agree whatever the order; no other law is used, and in particular
  nothing here needs the inputs to be finite.

  The modules: `TapSum` (the function, and the ordered sum as the sum), `RefTaps` (the reference's
  result is that function), `BodyLayout` and `Body` (a tile's stored block, entry by entry), `Tiles`
  (the tiles cover the result array), `KernelRun` (the kernel's run), and the claims below.  The three
  frames are the generated ones; the ideal pass rewrote nothing, so the kernel's idealization claim is trivial.
-/
import proofs.«126246_j11261404250772_1_alg».proof.Defs
import proofs.«126246_j11261404250772_1_alg».proof.Proof.Gen.Kernel
import proofs.«126246_j11261404250772_1_alg».proof.Proof.Gen.Kernel.Frame
import proofs.«126246_j11261404250772_1_alg».proof.Proof.Gen.KernelIdeal
import proofs.«126246_j11261404250772_1_alg».proof.Proof.Gen.KernelIdeal.Frame
import proofs.«126246_j11261404250772_1_alg».proof.Proof.Gen.KernelIdeal.Value
import proofs.«126246_j11261404250772_1_alg».proof.Proof.Gen.ReferenceIdeal
import proofs.«126246_j11261404250772_1_alg».proof.Proof.Gen.ReferenceIdeal.Run
import proofs.«126246_j11261404250772_1_alg».proof.Proof.Gen.ReferenceIdeal.Read
import proofs.«126246_j11261404250772_1_alg».proof.Proof.Gen.Pre_finite_inputs
import proofs.«126246_j11261404250772_1_alg».proof.Proof.TapSum
import proofs.«126246_j11261404250772_1_alg».proof.Proof.RefTaps
import proofs.«126246_j11261404250772_1_alg».proof.Proof.KernelRun
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories that agree on the three arguments both programs end with the weighted sum of the 25 taps of
    every pixel: the kernel by its tiles, the reference by its stack of shifted windows. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.Taps.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
